-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x10 .f32) (main_arg12 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x10 .f32) (main_arg12 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S5000 : Shape := ⟨1, ![5000]⟩
abbrev S5000x1 : Shape := ⟨2, ![5000, 1]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x10 : Shape := ⟨2, ![1, 10]⟩
abbrev S64x10 : Shape := ⟨2, ![64, 10]⟩

abbrev nBuf : Space → Nat
  | .hbm => 111
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000, .i32⟩
  | .hbm, ⟨18, _⟩ => ⟨S850000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S850000, .f32⟩
  | .hbm, ⟨56, _⟩ => ⟨S50000x128, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x1, .f32⟩
  | .hbm, ⟨67, _⟩ => ⟨S850000x128, .f32⟩
  | .hbm, ⟨68, _⟩ => ⟨S850000x128, .f32⟩
  | .hbm, ⟨69, _⟩ => ⟨S_, .f32⟩
  | .hbm, ⟨70, _⟩ => ⟨S50000x128, .f32⟩
  | .hbm, ⟨71, _⟩ => ⟨S850000x1, .i32⟩
  | .hbm, ⟨72, _⟩ => ⟨S50000x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x128, .f32⟩
  | .hbm, ⟨87, _⟩ => ⟨S850000x1, .f32⟩
  | .hbm, ⟨88, _⟩ => ⟨S850000x128, .f32⟩
  | .hbm, ⟨89, _⟩ => ⟨S850000x128, .f32⟩
  | .hbm, ⟨90, _⟩ => ⟨S_, .f32⟩
  | .hbm, ⟨91, _⟩ => ⟨S50000x128, .f32⟩
  | .hbm, ⟨92, _⟩ => ⟨S850000x1, .i32⟩
  | .hbm, ⟨93, _⟩ => ⟨S50000x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S50000x128, .f32⟩
  | .hbm, ⟨98, _⟩ => ⟨S_, .f32⟩
  | .hbm, ⟨99, _⟩ => ⟨S64x128, .f32⟩
  | .hbm, ⟨100, _⟩ => ⟨S50000x1, .i32⟩
  | .hbm, ⟨101, _⟩ => ⟨S64x128, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S64, .f32⟩
  | .hbm, ⟨106, _⟩ => ⟨S50000x1, .i32⟩
  | .hbm, ⟨107, _⟩ => ⟨S64, .f32⟩
  | .hbm, ⟨108, _⟩ => ⟨S64x1, .f32⟩
  | .hbm, ⟨109, _⟩ => ⟨S1x10, .f32⟩
  | .hbm, ⟨110, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S64x128, .f32⟩
  | .local _ .vmem, ⟨25, _⟩ => ⟨S64x1, .f32⟩
  | .local _ .vmem, ⟨26, _⟩ => ⟨S128x10, .f32⟩
  | .local _ .vmem, ⟨27, _⟩ => ⟨S1x10, .f32⟩
  | .local _ .vmem, ⟨28, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  shapeCasts_S64_S64x1 : S64.ShapeCasts S64x1
  shapeCasts_S10_S1x10 : S10.ShapeCasts S1x10
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S64x1_S64x128 : S64x1.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x10.size a ≤ S128x10.size a
  hwx4_2 : ∀ i : grid4.Coords, EltTy.bits .f32 = 32 ∨ (Rect.block (s := S128x10) S128x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x10.size a ≤ S1x10.size a
  hwx4_3 : ∀ i : grid4.Coords, EltTy.bits .f32 = 32 ∨ (Rect.block (s := S1x10) S1x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x10.size a ≤ S64x10.size a
  hwx4_4 : ∀ i : grid4.Coords, EltTy.bits .f32 = 32 ∨ (Rect.block (s := S64x10) S64x10.size (cc4_transform_4 i) (hinb4_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v70) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v75) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S64x10.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 223
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000, .f32⟩
  | 78 => ⟨S50000x1, .f32⟩
  | 79 => ⟨S_, .f32⟩
  | 80 => ⟨S50000x1, .f32⟩
  | 81 => ⟨S50000x1, .f32⟩
  | 82 => ⟨S50000x128, .f32⟩
  | 83 => ⟨S50000x128, .f32⟩
  | 84 => ⟨S50000x128, .f32⟩
  | 85 => ⟨S_, .f32⟩
  | 86 => ⟨S50000, .f32⟩
  | 87 => ⟨S50000x1, .f32⟩
  | 88 => ⟨S_, .f32⟩
  | 89 => ⟨S50000x1, .f32⟩
  | 90 => ⟨S50000x1, .f32⟩
  | 91 => ⟨S50000x128, .f32⟩
  | 92 => ⟨S50000x128, .f32⟩
  | 93 => ⟨S_, .f32⟩
  | 94 => ⟨S50000x1, .f32⟩
  | 95 => ⟨S50000x1, .f32⟩
  | 96 => ⟨S50000x1, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x800000, .i32⟩
  | 109 => ⟨S800000, .i32⟩
  | 110 => ⟨S1x800000, .i32⟩
  | 111 => ⟨S800000, .i32⟩
  | 112 => ⟨S50000, .i32⟩
  | 113 => ⟨S850000, .i32⟩
  | 114 => ⟨S850000, .i32⟩
  | 115 => ⟨S_, .f32⟩
  | 116 => ⟨S850000, .f32⟩
  | 117 => ⟨S_, .f32⟩
  | 118 => ⟨S50000, .f32⟩
  | 119 => ⟨S850000x1, .i32⟩
  | 120 => ⟨S50000, .f32⟩
  | 121 => ⟨S_, .f32⟩
  | 122 => ⟨S50000, .f32⟩
  | 123 => ⟨S50000, .i1⟩
  | 124 => ⟨S_, .f32⟩
  | 125 => ⟨S50000, .f32⟩
  | 126 => ⟨S50000, .f32⟩
  | 127 => ⟨S50000, .f32⟩
  | _ => ⟨S50000x128, .f32⟩

abbrev hbmTy0_1 (i : Nat) : BufTy := match i % 128 with
  | 0 => ⟨S_, .f32⟩
  | 1 => ⟨S_, .f32⟩
  | 2 => ⟨S50000, .f32⟩
  | 3 => ⟨S50000, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000, .f32⟩
  | 22 => ⟨S850000, .f32⟩
  | 23 => ⟨S50000x128, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000x128, .f32⟩
  | 33 => ⟨S850000x1, .f32⟩
  | 34 => ⟨S850000x128, .f32⟩
  | 35 => ⟨S850000x128, .f32⟩
  | 36 => ⟨S_, .f32⟩
  | 37 => ⟨S50000x128, .f32⟩
  | 38 => ⟨S850000x1, .i32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000, .f32⟩
  | 45 => ⟨S50000x1, .f32⟩
  | 46 => ⟨S_, .f32⟩
  | 47 => ⟨S50000x1, .f32⟩
  | 48 => ⟨S50000x1, .f32⟩
  | 49 => ⟨S50000x128, .f32⟩
  | 50 => ⟨S50000x128, .f32⟩
  | 51 => ⟨S50000x128, .f32⟩
  | 52 => ⟨S_, .f32⟩
  | 53 => ⟨S50000, .f32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S_, .f32⟩
  | 61 => ⟨S50000x1, .f32⟩
  | 62 => ⟨S50000x1, .f32⟩
  | 63 => ⟨S50000x1, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S64x128, .f32⟩
  | 77 => ⟨S50000x1, .i32⟩
  | 78 => ⟨S64x128, .f32⟩
  | 79 => ⟨S_, .f32⟩
  | 80 => ⟨S50000, .f32⟩
  | 81 => ⟨S_, .f32⟩
  | 82 => ⟨S64, .f32⟩
  | 83 => ⟨S50000x1, .i32⟩
  | 84 => ⟨S64, .f32⟩
  | 85 => ⟨S_, .f32⟩
  | 86 => ⟨S64, .f32⟩
  | 87 => ⟨S64, .f32⟩
  | 88 => ⟨S64x1, .f32⟩
  | 89 => ⟨S64x128, .f32⟩
  | 90 => ⟨S64x128, .f32⟩
  | 91 => ⟨S64x10, .f32⟩
  | 92 => ⟨S1x10, .f32⟩
  | 93 => ⟨S64x10, .f32⟩
  | 94 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call1_cst : Ref sig .tc := ⟨.hbm, 105, rfl⟩
abbrev main_call1_v0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_15 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_call2_v0 : Ref sig .tc := ⟨.hbm, 129, rfl⟩
abbrev main_call2_v1 : Ref sig .tc := ⟨.hbm, 130, rfl⟩
abbrev main_v90 : Ref sig .tc := ⟨.hbm, 131, rfl⟩
abbrev main_c_20 : Ref sig .tc := ⟨.hbm, 132, rfl⟩
abbrev main_v91 : Ref sig .tc := ⟨.hbm, 133, rfl⟩
abbrev main_v92 : Ref sig .tc := ⟨.hbm, 134, rfl⟩
abbrev main_c_21 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_22 : Ref sig .tc := ⟨.hbm, 141, rfl⟩
abbrev main_v98 : Ref sig .tc := ⟨.hbm, 142, rfl⟩
abbrev main_v99 : Ref sig .tc := ⟨.hbm, 143, rfl⟩
abbrev main_c_23 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_24 : Ref sig .tc := ⟨.hbm, 152, rfl⟩
abbrev main_v107 : Ref sig .tc := ⟨.hbm, 153, rfl⟩
abbrev main_v108 : Ref sig .tc := ⟨.hbm, 154, rfl⟩
abbrev main_c_25 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_26 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_27 : Ref sig .tc := ⟨.hbm, 171, rfl⟩
abbrev main_v123 : Ref sig .tc := ⟨.hbm, 172, rfl⟩
abbrev main_v124 : Ref sig .tc := ⟨.hbm, 173, rfl⟩
abbrev main_cst_28 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_29 : Ref sig .tc := ⟨.hbm, 180, rfl⟩
abbrev main_v130 : Ref sig .tc := ⟨.hbm, 181, rfl⟩
abbrev main_v131 : Ref sig .tc := ⟨.hbm, 182, rfl⟩
abbrev main_cst_30 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_31 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_call3_cst : Ref sig .tc := ⟨.hbm, 200, rfl⟩
abbrev main_call3_v0 : Ref sig .tc := ⟨.hbm, 201, rfl⟩
abbrev main_v147 : Ref sig .tc := ⟨.hbm, 202, rfl⟩
abbrev main_cst_32 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_33 : Ref sig .tc := ⟨.hbm, 207, rfl⟩
abbrev main_v151 : Ref sig .tc := ⟨.hbm, 208, rfl⟩
abbrev main_cst_34 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_35 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel's run with its result named.

  @main is eleven segments: host stretches and five regions. The buffer contents at each segment boundary are a
  fold from the launch memory — a host stretch applies its operations, a region replaces its arrays by what its
  write-backs leave — ending at the last boundary's contents. Every weakly fair execution terminates, without a
  fault, in a state whose unscoped buffers hold those last contents: so the result buffer holds the fold's value at
  the result, and each argument, which no segment writes, holds what it was launched with.
-/
import proofs.«105438_j15504831939241_1_alg».proof.Proof.Gen.KernelIdeal.Frame

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v77) = W11 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v77 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.Named

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.Dense0.lean ====
/-
  The first dense layer, one block of rows at a time, is the whole product.

  The region runs over ten grid points. Point `t` is handed rows `5000·t … 5000·t + 4999` of the left array
  `X : [50000, 128]` and the whole right array `W : [128, 128]`, multiplies them on the matrix unit into a zero
  accumulator, and writes the `5000 × 128` result back as the same rows of the output array. A row of a product
  depends on the same row of the left operand only, and the ten row blocks tile the output, so the output array ends
  holding `∑ₖ X (r, k) · W (k, c)` at every `(r, c)`: the product rows by columns. The change of format before the
  multiplication is the identity on the extended reals.
-/
import proofs.«105438_j15504831939241_1_alg».proof.Proof.Gen.KernelIdeal.Frame
import proofs.«105438_j15504831939241_1_alg».proof.Proof.LibPlainProduct
import Idealize.ShloMosaic.Lib.Pipeline.Value
import Idealize.ShloMosaic.Lib.ValueIdx

noncomputable section

namespace Cert.KernelIdeal.Dense0

open Idealize.ShloMosaic Idealize.ShloMosaic.TcCoe Idealize.ShloMosaic.ValueIdx Idealize.ShloMosaic.PlainProduct Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- What one grid point computes from its two blocks: their product rows by columns. -/
theorem block_product (x0 : Vec Ideal S5000x128 .f32) (x1 : Vec Ideal S128x128 .f32) :
    k0_pay1 (F := Ideal) x0 x1 = rowsByCols (φ₁ := .f32) (φ₂ := .f32) x0 x1 := by
  unfold k0_pay1
  exact matmul_zero_plain none _ _

/-- Rows `q·5000 + r` of the whole product, from a block holding those rows of the left array. -/
theorem rows_of_product (X : FVec Ideal S50000x128 .f32) (W : FVec Ideal S128x128 .f32)
    (xb : FVec Ideal S5000x128 .f32) (wb : FVec Ideal S128x128 .f32) (q : ℕ) (hq : q < 10)
    (hx : ∀ (r : Fin 5000) (k : Fin 128), xb (ix2 r k) = X (ix2 (⟨q * 5000 + r.val, by omega⟩ : Fin 50000) k))
    (hw : wb = W) (j : S5000x128.Idx) (i : S50000x128.Idx)
    (hi0 : (i 0).val = q * 5000 + (j 0).val) (hi1 : (i 1).val = (j 1).val) :
    rowsByCols (φ₁ := .f32) (φ₂ := .f32) xb wb j = rowsByCols (φ₁ := .f32) (φ₂ := .f32) X W i := by
  subst hw
  rw [rowsByCols_rows X wb xb (fun r => (⟨q * 5000 + r.val, by omega⟩ : Fin 50000)) hx j]
  congr 1
  funext a; apply Fin.ext
  match a with
  | ⟨0, _⟩ => exact hi0.symm
  | ⟨1, _⟩ => exact hi1.symm

/-- The printed index maps over the grid: the left array's block and the output's block move together down the rows,
    point `t` at block `t`; the right array's block stays at the origin. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product of the arrays the region finds. -/
theorem written_back (c : Dev nD) (t : Fin cfg0.N) :
    (dat0 V c).flushed 2 t = ((cfg0.win 2).blk t).view.read (Elt Ideal)
      (rowsByCols (φ₁ := .f32) (φ₂ := .f32) (V c (Pipeline.arrRef spec0 0)) (V c (Pipeline.arrRef spec0 1))) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  rw [block_product]
  obtain ⟨e0, e1, e2, e3, e4, e5⟩ := index_maps t
  have ht : t.val < 10 := by have h := t.isLt; have hN : cfg0.N = 10 := N_0; omega
  funext j
  show rowsByCols (φ₁ := .f32) (φ₂ := .f32) (iblk0 V c 0 t) (iblk0 V c 1 t) j
    = rowsByCols (φ₁ := .f32) (φ₂ := .f32) (V c main_arg0) (V c main_arg3) (((cfg0.win 2).blk t).view.emb j)
  refine rows_of_product (V c main_arg0) (V c main_arg3) (iblk0 V c 0 t) (iblk0 V c 1 t) t.val ht ?_ ?_ j _ ?_ ?_
  · intro r k
    show V c main_arg0 (((cfg0.win 0).blk t).view.emb (ix2 r k)) = _
    refine congrArg (V c main_arg0) ?_
    funext a; apply Fin.ext
    match a with
    | ⟨0, _⟩ => show win0_0.index t (0 : Fin 2) * 5000 + 1 * r.val = t.val * 5000 + r.val; omega
    | ⟨1, _⟩ => show win0_0.index t (1 : Fin 2) * 128 + 1 * k.val = k.val; omega
  · funext y
    show V c main_arg3 (((cfg0.win 1).blk t).view.emb y) = V c main_arg3 y
    refine congrArg (V c main_arg3) ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 5000 + 1 * (j 0).val = t.val * 5000 + (j 0).val; omega
  · show win0_2.index t (1 : Fin 2) * 128 + 1 * (j 1).val = (j 1).val; omega

/-- An index of the output array lies in point `t`'s block iff each coordinate lies in the block's range. -/
theorem in_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The ten row blocks tile the output: row `r` is in block `r / 5000`. -/
theorem tiled (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have hlt : (i 0).val / 5000 < cfg0.N := by rw [hN]; omega
  refine ⟨⟨(i 0).val / 5000, hlt⟩, flush0_2 _, ?_⟩
  rw [in_block]
  obtain ⟨e0, e1, e2, e3, e4, e5⟩ := index_maps ⟨(i 0).val / 5000, hlt⟩
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    rw [e5]; omega

/-- The output array after the region: the product, rows by columns, of the two arrays the region finds. -/
theorem product (c : Dev nD) :
    (dat0 V c).arrAt 2 cfg0.N = rowsByCols (φ₁ := .f32) (φ₂ := .f32) (V c (Pipeline.arrRef spec0 0)) (V c (Pipeline.arrRef spec0 1)) :=
  (dat0 V c).arrAt_eq_of_cover 2 _ (fun t _ => written_back V c t) tiled

end Cert.KernelIdeal.Dense0

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibRowNorm.lean ====
/-
  Layer normalisation of the rows of a block, followed by a clip at a floor, on the extended reals.

  For one row `a` of length `n`, a bias row `b`, a gain row `g` and an offset row `be`, write `s j = a j + b j`,
  `mean = (∑ j, s j) / cnt`, `d j = s j - mean` and `var = (∑ j, d j · d j) / cnt`. The normalised entry is
  `max (d k · rsqrt (var + eps) · g k + be k) floor`: `normRow`. It depends on the one row only.

  A block of `R` rows computes this for every row at once, with whole-block operations: the bias row repeated down
  the block and added (`shifted`), the row sums taken along the lanes, turned into a column and divided by the count
  (`rowMeans`), that column repeated along the lanes and subtracted (`centred`), the same column operation on the
  squares, the offset `eps` added and the reciprocal square root taken (`rowScales`), and the products, the sum and
  the clip lane by lane (`normBlock`). `normBlock_apply` reads the block at row `r`, lane `k`: it is `normRow` of
  row `r`. Nothing here needs an entry to be finite: every step is the same operation on both sides.
-/
import Idealize.ShloMosaic.Lib.Pipeline.Value
import Idealize.ShloMosaic.Lib.ValueIdx
import Idealize.ShloMosaic.Lib.ValueLayout
import Idealize.ShloMosaic.PureOps.Ideal.Laws
import proofs.«105438_j15504831939241_1_alg».proof.Proof.LibRows
import proofs.«105438_j15504831939241_1_alg».proof.Proof.LibLayout

noncomputable section

open scoped BigOperators

namespace Cert.RowNorm

open Idealize.ShloMosaic Idealize.ShloMosaic.ValueIdx

variable {R n : ℕ}

/-- One row normalised, scaled, shifted and clipped, at lane `k`. -/
def normRow (cnt eps floor : EReal) (a b g be : Fin n → EReal) (k : Fin n) : EReal :=
  max ((a k + b k - Ideal.div (∑ j, (a j + b j)) cnt)
      * Ideal.rsqrt (Ideal.div (∑ j, (a j + b j - Ideal.div (∑ l, (a l + b l)) cnt)
          * (a j + b j - Ideal.div (∑ l, (a l + b l)) cnt)) cnt + eps)
      * g k + be k) floor

/-- The block with the bias row added to each of its rows. -/
def shifted (v0 : FVec Ideal ⟨2, ![R, n]⟩ .f32) (v2 : FVec Ideal ⟨2, ![1, n]⟩ .f32)
    (hs0 : (⟨2, ![R, n]⟩ : Shape).ShapeCasts ⟨2, ![R, n]⟩) (hs1 : (⟨2, ![1, n]⟩ : Shape).ShapeCasts ⟨2, ![1, n]⟩)
    (hb : (⟨2, ![1, n]⟩ : Shape).Broadcasts ⟨2, ![R, n]⟩) : FVec Ideal ⟨2, ![R, n]⟩ .f32 :=
  addf (shapeCast ⟨2, ![R, n]⟩ v0 hs0) (broadcastTo ⟨2, ![R, n]⟩ (shapeCast ⟨2, ![1, n]⟩ v2 hs1) hb)

theorem shifted_apply (v0 : FVec Ideal ⟨2, ![R, n]⟩ .f32) (v2 : FVec Ideal ⟨2, ![1, n]⟩ .f32)
    (hs0 : (⟨2, ![R, n]⟩ : Shape).ShapeCasts ⟨2, ![R, n]⟩) (hs1 : (⟨2, ![1, n]⟩ : Shape).ShapeCasts ⟨2, ![1, n]⟩)
    (hb : (⟨2, ![1, n]⟩ : Shape).Broadcasts ⟨2, ![R, n]⟩) (r : Fin R) (k : Fin n) :
    shifted v0 v2 hs0 hs1 hb (ix2 r k) = v0 (ix2 r k) + v2 (ix2 (0 : Fin 1) k) := by
  unfold shifted
  rw [addf_apply, shapeCast_self, broadcastTo_1b_ab_apply, shapeCast_self]

/-- The column of row means: the lane sums, as a column, divided by the count. -/
def rowMeans (s : FVec Ideal ⟨2, ![R, n]⟩ .f32) (cnt : BitVec 32)
    (hr : (⟨2, ![R, n]⟩ : Shape).Reduces [(1 : Fin 2)] ⟨1, ![R]⟩) (hc : (⟨1, ![R]⟩ : Shape).ShapeCasts ⟨2, ![R, 1]⟩) :
    FVec Ideal ⟨2, ![R, 1]⟩ .f32 :=
  divf (shapeCast ⟨2, ![R, 1]⟩ (multiReduction .add [(1 : Fin 2)] ⟨1, ![R]⟩ s 0x00000000#32 hr (.inl rfl) rfl) hc)
    (broadcast ⟨2, ![R, 1]⟩ (Scalar.ofBits .f32 cnt))

theorem rowMeans_apply (s : FVec Ideal ⟨2, ![R, n]⟩ .f32) (cnt : BitVec 32)
    (hr : (⟨2, ![R, n]⟩ : Shape).Reduces [(1 : Fin 2)] ⟨1, ![R]⟩) (hc : (⟨1, ![R]⟩ : Shape).ShapeCasts ⟨2, ![R, 1]⟩)
    (r : Fin R) (u : Fin 1) :
    rowMeans s cnt hr hc (ix2 r u) = Ideal.div (∑ j : Fin n, s (ix2 r j)) (Ideal.ofBits .f32 cnt) := by
  unfold rowMeans
  rw [divf_apply, Cert.LibLayout.shapeCast_a_a1_apply]
  exact congrArg₂ Ideal.div (Cert.LibRows.rowSum_apply s 0x00000000#32 hr (.inl rfl) rfl r) rfl

/-- The block with each row's mean taken off. -/
def centred (s : FVec Ideal ⟨2, ![R, n]⟩ .f32) (cnt : BitVec 32)
    (hr : (⟨2, ![R, n]⟩ : Shape).Reduces [(1 : Fin 2)] ⟨1, ![R]⟩) (hc : (⟨1, ![R]⟩ : Shape).ShapeCasts ⟨2, ![R, 1]⟩)
    (hcb : (⟨2, ![R, 1]⟩ : Shape).Broadcasts ⟨2, ![R, n]⟩) : FVec Ideal ⟨2, ![R, n]⟩ .f32 :=
  subf s (broadcastTo ⟨2, ![R, n]⟩ (rowMeans s cnt hr hc) hcb)

theorem centred_apply (s : FVec Ideal ⟨2, ![R, n]⟩ .f32) (cnt : BitVec 32)
    (hr : (⟨2, ![R, n]⟩ : Shape).Reduces [(1 : Fin 2)] ⟨1, ![R]⟩) (hc : (⟨1, ![R]⟩ : Shape).ShapeCasts ⟨2, ![R, 1]⟩)
    (hcb : (⟨2, ![R, 1]⟩ : Shape).Broadcasts ⟨2, ![R, n]⟩) (r : Fin R) (k : Fin n) :
    centred s cnt hr hc hcb (ix2 r k) = s (ix2 r k) - Ideal.div (∑ j : Fin n, s (ix2 r j)) (Ideal.ofBits .f32 cnt) := by
  unfold centred
  rw [subf_apply, Cert.LibLayout.broadcastTo_a1_ab_apply, rowMeans_apply]

/-- The column of row scales: the reciprocal square root of the mean square plus `eps`. -/
def rowScales (d : FVec Ideal ⟨2, ![R, n]⟩ .f32) (cnt eps : BitVec 32)
    (hr : (⟨2, ![R, n]⟩ : Shape).Reduces [(1 : Fin 2)] ⟨1, ![R]⟩) (hc : (⟨1, ![R]⟩ : Shape).ShapeCasts ⟨2, ![R, 1]⟩) :
    FVec Ideal ⟨2, ![R, 1]⟩ .f32 :=
  rsqrt (addf (rowMeans (mulf d d) cnt hr hc) (broadcast ⟨2, ![R, 1]⟩ (Scalar.ofBits .f32 eps)))

theorem rowScales_apply (d : FVec Ideal ⟨2, ![R, n]⟩ .f32) (cnt eps : BitVec 32)
    (hr : (⟨2, ![R, n]⟩ : Shape).Reduces [(1 : Fin 2)] ⟨1, ![R]⟩) (hc : (⟨1, ![R]⟩ : Shape).ShapeCasts ⟨2, ![R, 1]⟩)
    (r : Fin R) (u : Fin 1) :
    rowScales d cnt eps hr hc (ix2 r u)
      = Ideal.rsqrt (Ideal.div (∑ j : Fin n, d (ix2 r j) * d (ix2 r j)) (Ideal.ofBits .f32 cnt) + Ideal.ofBits .f32 eps) := by
  unfold rowScales
  show Ideal.rsqrt (addf (rowMeans (mulf d d) cnt hr hc) (broadcast ⟨2, ![R, 1]⟩ (Scalar.ofBits .f32 eps)) (ix2 r u)) = _
  rw [addf_apply, rowMeans_apply, broadcast_apply]
  rfl

/-- The block normalised row by row, scaled by the gain row, shifted by the offset row and clipped at `floor`. -/
def normBlock (v0 : FVec Ideal ⟨2, ![R, n]⟩ .f32) (v2 v22 v26 : FVec Ideal ⟨2, ![1, n]⟩ .f32) (cnt eps floor : BitVec 32)
    (hs0 : (⟨2, ![R, n]⟩ : Shape).ShapeCasts ⟨2, ![R, n]⟩) (hs1 : (⟨2, ![1, n]⟩ : Shape).ShapeCasts ⟨2, ![1, n]⟩)
    (hb : (⟨2, ![1, n]⟩ : Shape).Broadcasts ⟨2, ![R, n]⟩)
    (hr : (⟨2, ![R, n]⟩ : Shape).Reduces [(1 : Fin 2)] ⟨1, ![R]⟩) (hc : (⟨1, ![R]⟩ : Shape).ShapeCasts ⟨2, ![R, 1]⟩)
    (hcb : (⟨2, ![R, 1]⟩ : Shape).Broadcasts ⟨2, ![R, n]⟩) : FVec Ideal ⟨2, ![R, n]⟩ .f32 :=
  maximumf
    (addf
      (mulf
        (mulf (centred (shifted v0 v2 hs0 hs1 hb) cnt hr hc hcb)
          (broadcastTo ⟨2, ![R, n]⟩ (rowScales (centred (shifted v0 v2 hs0 hs1 hb) cnt hr hc hcb) cnt eps hr hc) hcb))
        (broadcastTo ⟨2, ![R, n]⟩ (shapeCast ⟨2, ![1, n]⟩ v22 hs1) hb))
      (broadcastTo ⟨2, ![R, n]⟩ (shapeCast ⟨2, ![1, n]⟩ v26 hs1) hb))
    (broadcast ⟨2, ![R, n]⟩ (Scalar.ofBits .f32 floor))

/-- The normalised block at row `r`, lane `k`, is the normalised row `r` at lane `k`. -/
theorem normBlock_apply (v0 : FVec Ideal ⟨2, ![R, n]⟩ .f32) (v2 v22 v26 : FVec Ideal ⟨2, ![1, n]⟩ .f32) (cnt eps floor : BitVec 32)
    (hs0 : (⟨2, ![R, n]⟩ : Shape).ShapeCasts ⟨2, ![R, n]⟩) (hs1 : (⟨2, ![1, n]⟩ : Shape).ShapeCasts ⟨2, ![1, n]⟩)
    (hb : (⟨2, ![1, n]⟩ : Shape).Broadcasts ⟨2, ![R, n]⟩)
    (hr : (⟨2, ![R, n]⟩ : Shape).Reduces [(1 : Fin 2)] ⟨1, ![R]⟩) (hc : (⟨1, ![R]⟩ : Shape).ShapeCasts ⟨2, ![R, 1]⟩)
    (hcb : (⟨2, ![R, 1]⟩ : Shape).Broadcasts ⟨2, ![R, n]⟩) (r : Fin R) (k : Fin n) :
    normBlock v0 v2 v22 v26 cnt eps floor hs0 hs1 hb hr hc hcb (ix2 r k)
      = normRow (Ideal.ofBits .f32 cnt) (Ideal.ofBits .f32 eps) (Ideal.ofBits .f32 floor)
          (fun j => v0 (ix2 r j)) (fun j => v2 (ix2 (0 : Fin 1) j)) (fun j => v22 (ix2 (0 : Fin 1) j))
          (fun j => v26 (ix2 (0 : Fin 1) j)) k := by
  unfold normBlock normRow
  rw [maximumf_apply, addf_apply, mulf_apply, mulf_apply, centred_apply, Cert.LibLayout.broadcastTo_a1_ab_apply,
    rowScales_apply, broadcastTo_1b_ab_apply, shapeCast_self, broadcastTo_1b_ab_apply, shapeCast_self, broadcast_apply]
  simp only [centred_apply, shifted_apply]
  rfl

end Cert.RowNorm

end
-- ==== Proof.Spec.lean ====
/-
  Two whole-array functions on the extended reals that the regions of the network compute.

  `normRows A b g be`: every row of `A : [R, n]` is shifted by the bias row `b`, centred on its mean, divided by the
  square root of its mean square plus a small offset, scaled by the gain row `g`, shifted by the offset row `be` and
  clipped at a floor — entry `(r, k)` is `normRow` of row `r` at lane `k`.

  `pooledHead S cnt W b`: row `r` of the sums `S : [G, H]` is divided by its count (at least one), multiplied into
  `W : [H, C]` and shifted by the row `b` — entry `(r, c)` is `(∑ₖ S (r, k) / max (cnt r) 1 · W (k, c)) + b c`.
-/
import proofs.«105438_j15504831939241_1_alg».proof.Proof.LibRowNorm

noncomputable section

open scoped BigOperators

namespace Cert.Spec

open Idealize.ShloMosaic Idealize.ShloMosaic.ValueIdx Cert.RowNorm

/-- Each row of `A` normalised, scaled, shifted and clipped. -/
def normRows {R n : ℕ} (A : FVec Ideal ⟨2, ![R, n]⟩ .f32) (b g be : FVec Ideal ⟨2, ![1, n]⟩ .f32)
    (cnt eps floor : BitVec 32) : FVec Ideal ⟨2, ![R, n]⟩ .f32 :=
  fun i => normRow (Ideal.ofBits .f32 cnt) (Ideal.ofBits .f32 eps) (Ideal.ofBits .f32 floor)
    (fun j => A (ix2 (i 0) j)) (fun j => b (ix2 (0 : Fin 1) j)) (fun j => g (ix2 (0 : Fin 1) j))
    (fun j => be (ix2 (0 : Fin 1) j)) (i 1)

/-- Each row of sums divided by its count (at least `one`), multiplied into `W`, shifted by `b`. -/
def pooledHead {G H C : ℕ} (S : FVec Ideal ⟨2, ![G, H]⟩ .f32) (cnt : FVec Ideal ⟨2, ![G, 1]⟩ .f32)
    (W : FVec Ideal ⟨2, ![H, C]⟩ .f32) (b : FVec Ideal ⟨2, ![1, C]⟩ .f32) (one : BitVec 32) :
    FVec Ideal ⟨2, ![G, C]⟩ .f32 :=
  fun i => (∑ k : Fin H, Ideal.div (S (ix2 (i 0) k)) (max (cnt (ix2 (i 0) (0 : Fin 1))) (Ideal.ofBits .f32 one))
      * W (ix2 k (i 1))) + b (ix2 (0 : Fin 1) (i 1))

end Cert.Spec

end
-- ==== Proof.Norm1.lean ====
/-
  A normalisation region, one block of rows at a time, is the normalisation of every row of the whole array.

  The region runs over ten grid points. Point `t` is handed rows `5000·t … 5000·t + 4999` of the array
  `A : [50000, 128]` and the three rows `b`, `g`, `be : [1, 128]` whole, adds the bias row, takes each row's mean and mean
  square over its 128 lanes, normalises, scales, shifts and clips at zero, and writes the block back as the same rows of
  the output. Each output row depends on the same row of `A` only, and the ten row blocks tile the output, so the
  output array ends holding `normRows A b g be`.
-/
import proofs.«105438_j15504831939241_1_alg».proof.Proof.Gen.KernelIdeal.Frame
import proofs.«105438_j15504831939241_1_alg».proof.Proof.Spec
import Idealize.ShloMosaic.Lib.Pipeline.Value
import Idealize.ShloMosaic.Lib.ValueIdx

noncomputable section

namespace Cert.KernelIdeal.Norm1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowNorm Cert.Spec

variable (V : (c : Dev nD) → (b : Ref sig .tc) → Buf (Elt Ideal) ((c : Thread nD τ).loc b))

theorem origin : (![0, 0] : Fin 2 → Nat) = fun _ => 0 := funext fun a => by fin_cases a <;> rfl

/-- What one grid point computes from its four blocks: the block normalised row by row. -/
theorem block_norm (v0 : Vec Ideal S5000x128 .f32) (v2 v22 v26 : Vec Ideal S1x128 .f32) :
    k1_pay1 (F := Ideal) v0 v2 v22 v26
      = normBlock v0 v2 v22 v26 0x43000000#32 0x3727C5AC#32 0x00000000#32 shapeCasts_S5000x128_S5000x128
          shapeCasts_S1x128_S1x128 broadcasts_S1x128_S5000x128 reduces_S5000x128_S5000 shapeCasts_S5000_S5000x1
          broadcasts_S5000x1_S5000x128 := rfl

/-- Rows `q·5000 + r` of the whole normalisation, from a block holding those rows of `A`. -/
theorem rows_of_norm (A : FVec Ideal S50000x128 .f32) (b g be : FVec Ideal S1x128 .f32)
    (ab : FVec Ideal S5000x128 .f32) (bb gb beb : FVec Ideal S1x128 .f32) (q : ℕ) (hq : q < 10)
    (ha : ∀ (r : Fin 5000) (k : Fin 128), ab (ix2 r k) = A (ix2 (⟨q * 5000 + r.val, by omega⟩ : Fin 50000) k))
    (hb : bb = b) (hg : gb = g) (hbe : beb = be) (r : Fin 5000) (k : Fin 128) (i : S50000x128.Idx)
    (hi0 : (i 0).val = q * 5000 + r.val) (hi1 : (i 1).val = k.val) :
    normBlock ab bb gb beb 0x43000000#32 0x3727C5AC#32 0x00000000#32 shapeCasts_S5000x128_S5000x128
        shapeCasts_S1x128_S1x128 broadcasts_S1x128_S5000x128 reduces_S5000x128_S5000 shapeCasts_S5000_S5000x1
        broadcasts_S5000x1_S5000x128 (ix2 r k)
      = normRows A b g be 0x43000000#32 0x3727C5AC#32 0x00000000#32 i := by
  subst hb hg hbe
  have e0 : i 0 = (⟨q * 5000 + r.val, by omega⟩ : Fin 50000) := Fin.ext hi0
  have e1 : i 1 = k := Fin.ext hi1
  rw [normBlock_apply]
  unfold normRows
  rw [e0, e1]
  exact congrArg (fun a => normRow _ _ _ a _ _ _ k) (funext fun l => ha r l)

/-- The printed index maps over the grid: the array's block and the output's block move together down the rows,
    point `t` at block `t`; the three rows stay at the origin. -/
theorem index_maps : ∀ t : Fin cfg1.N, win1_0.index t (0 : Fin 2) = t.val
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val
    ∧ win1_4.index t (1 : Fin 2) = 0 :=
  (by decide +kernel : ∀ t : Fin grid1.N, _)

/-- A window whose block is its whole one-row array reads that array. -/
theorem whole_row (c : Dev nD) (t : Fin cfg1.N) :
    iblk1 V c 1 t = V c main_v46 ∧ iblk1 V c 2 t = V c main_v47 ∧ iblk1 V c 3 t = V c main_v48 := by
  obtain ⟨e0, e1, e2, e3, e4, e5, e6, e7, e8, e9⟩ := index_maps t
  refine ⟨?_, ?_, ?_⟩
  · funext y
    show V c main_v46 (((cfg1.win 1).blk t).view.emb y) = V c main_v46 y
    refine congrArg (V c main_v46) ?_
    funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega
  · funext y
    show V c main_v47 (((cfg1.win 2).blk t).view.emb y) = V c main_v47 y
    refine congrArg (V c main_v47) ?_
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega
  · funext y
    show V c main_v48 (((cfg1.win 3).blk t).view.emb y) = V c main_v48 y
    refine congrArg (V c main_v48) ?_
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega

set_option maxHeartbeats 1000000 in
/-- What point `t` writes back is block `t` of the whole normalisation of the arrays the region finds. -/
theorem written_back (c : Dev nD) (t : Fin cfg1.N) :
    (dat1 V c).flushed 4 t = ((cfg1.win 4).blk t).view.read (Elt Ideal)
      (normRows (V c (Pipeline.arrRef spec1 0)) (V c (Pipeline.arrRef spec1 1)) (V c (Pipeline.arrRef spec1 2))
        (V c (Pipeline.arrRef spec1 3)) 0x43000000#32 0x3727C5AC#32 0x00000000#32) := by
  show (cfg1.win 4).cut (grid1.coords t) ((dat1 V c).after 4 t) = _
  rw [after1_4]
  unfold out1_4
  rw [View.canon_unit_zero origin]
  simp only [View.ld_unit_zero (S := S5000x128) origin, View.ld_unit_zero (S := S1x128) origin]
  rw [block_norm]
  obtain ⟨e0, e1, e2, e3, e4, e5, e6, e7, e8, e9⟩ := index_maps t
  obtain ⟨w1, w2, w3⟩ := whole_row V c t
  have ht : t.val < 10 := by have h := t.isLt; have hN : cfg1.N = 10 := N_1; omega
  funext j
  obtain ⟨r, k, rfl⟩ : ∃ (r : Fin 5000) (k : Fin 128), j = ix2 r k := ⟨j 0, j 1, eq_ix2 j⟩
  show normBlock (iblk1 V c 0 t) (iblk1 V c 1 t) (iblk1 V c 2 t) (iblk1 V c 3 t) 0x43000000#32 0x3727C5AC#32
      0x00000000#32 shapeCasts_S5000x128_S5000x128 shapeCasts_S1x128_S1x128 broadcasts_S1x128_S5000x128
      reduces_S5000x128_S5000 shapeCasts_S5000_S5000x1 broadcasts_S5000x1_S5000x128 (ix2 r k)
    = normRows (V c main_v45) (V c main_v46) (V c main_v47) (V c main_v48) 0x43000000#32 0x3727C5AC#32 0x00000000#32
        (((cfg1.win 4).blk t).view.emb (ix2 r k))
  refine rows_of_norm (V c main_v45) (V c main_v46) (V c main_v47) (V c main_v48) (iblk1 V c 0 t) (iblk1 V c 1 t)
    (iblk1 V c 2 t) (iblk1 V c 3 t) t.val ht ?_ w1 w2 w3 r k _ ?_ ?_
  · intro r k
    show V c main_v45 (((cfg1.win 0).blk t).view.emb (ix2 r k)) = _
    refine congrArg (V c main_v45) ?_
    funext a; apply Fin.ext
    match a with
    | ⟨0, _⟩ => show win1_0.index t (0 : Fin 2) * 5000 + 1 * r.val = t.val * 5000 + r.val; omega
    | ⟨1, _⟩ => show win1_0.index t (1 : Fin 2) * 128 + 1 * k.val = k.val; omega
  · show win1_4.index t (0 : Fin 2) * 5000 + 1 * r.val = t.val * 5000 + r.val; omega
  · show win1_4.index t (1 : Fin 2) * 128 + 1 * k.val = k.val; omega

/-- An index of the output array lies in point `t`'s block iff each coordinate lies in the block's range. -/
theorem in_block (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v49).slice (win1_4.rect t)).set ↔ _
  rw [View.set_slice_whole, Rect.mem_set_unit]
  exact Iff.rfl

/-- The ten row blocks tile the output: row `r` is in block `r / 5000`. -/
theorem tiled (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have hlt : (i 0).val / 5000 < cfg1.N := by rw [hN]; omega
  refine ⟨⟨(i 0).val / 5000, hlt⟩, flush1_4 _, ?_⟩
  rw [in_block]
  obtain ⟨e0, e1, e2, e3, e4, e5, e6, e7, e8, e9⟩ := index_maps ⟨(i 0).val / 5000, hlt⟩
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    rw [e9]; omega

/-- The output array after the region: every row of the first array normalised with the three rows. -/
theorem normalised (c : Dev nD) :
    (dat1 V c).arrAt 4 cfg1.N
      = normRows (V c (Pipeline.arrRef spec1 0)) (V c (Pipeline.arrRef spec1 1)) (V c (Pipeline.arrRef spec1 2))
          (V c (Pipeline.arrRef spec1 3)) 0x43000000#32 0x3727C5AC#32 0x00000000#32 :=
  (dat1 V c).arrAt_eq_of_cover 4 _ (fun t _ => written_back V c t) tiled

end Cert.KernelIdeal.Norm1

end
-- ==== Proof.Dense2.lean ====
/-
  The second dense layer, one block of rows at a time, is the whole product.

  The region runs over ten grid points. Point `t` is handed rows `5000·t … 5000·t + 4999` of the left array
  `X : [50000, 128]` and the whole right array `W : [128, 128]`, multiplies them on the matrix unit into a zero
  accumulator, and writes the `5000 × 128` result back as the same rows of the output array. A row of a product
  depends on the same row of the left operand only, and the ten row blocks tile the output, so the output array ends
  holding `∑ₖ X (r, k) · W (k, c)` at every `(r, c)`: the product rows by columns. The cast to the same shape and the change of
  format before the multiplication are the identity on the extended reals.
-/
import proofs.«105438_j15504831939241_1_alg».proof.Proof.Gen.KernelIdeal.Frame
import proofs.«105438_j15504831939241_1_alg».proof.Proof.LibPlainProduct
import Idealize.ShloMosaic.Lib.Pipeline.Value
import Idealize.ShloMosaic.Lib.ValueIdx

noncomputable section

namespace Cert.KernelIdeal.Dense2

open Idealize.ShloMosaic Idealize.ShloMosaic.TcCoe Idealize.ShloMosaic.ValueIdx Idealize.ShloMosaic.PlainProduct Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- What one grid point computes from its two blocks: their product rows by columns. -/
theorem block_product (x0 : Vec Ideal S5000x128 .f32) (x1 : Vec Ideal S128x128 .f32) :
    k2_pay1 (F := Ideal) x0 x1 = rowsByCols (φ₁ := .f32) (φ₂ := .f32) x0 x1 := by
  unfold k2_pay1
  refine (matmul_zero_plain none _ _).trans ?_
  rw [shapeCast_self]
  rfl

/-- Rows `q·5000 + r` of the whole product, from a block holding those rows of the left array. -/
theorem rows_of_product (X : FVec Ideal S50000x128 .f32) (W : FVec Ideal S128x128 .f32)
    (xb : FVec Ideal S5000x128 .f32) (wb : FVec Ideal S128x128 .f32) (q : ℕ) (hq : q < 10)
    (hx : ∀ (r : Fin 5000) (k : Fin 128), xb (ix2 r k) = X (ix2 (⟨q * 5000 + r.val, by omega⟩ : Fin 50000) k))
    (hw : wb = W) (j : S5000x128.Idx) (i : S50000x128.Idx)
    (hi0 : (i 0).val = q * 5000 + (j 0).val) (hi1 : (i 1).val = (j 1).val) :
    rowsByCols (φ₁ := .f32) (φ₂ := .f32) xb wb j = rowsByCols (φ₁ := .f32) (φ₂ := .f32) X W i := by
  subst hw
  rw [rowsByCols_rows X wb xb (fun r => (⟨q * 5000 + r.val, by omega⟩ : Fin 50000)) hx j]
  congr 1
  funext a; apply Fin.ext
  match a with
  | ⟨0, _⟩ => exact hi0.symm
  | ⟨1, _⟩ => exact hi1.symm

/-- The printed index maps over the grid: the left array's block and the output's block move together down the rows,
    point `t` at block `t`; the right array's block stays at the origin. -/
theorem index_maps : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the whole product of the arrays the region finds. -/
theorem written_back (c : Dev nD) (t : Fin cfg2.N) :
    (dat2 V c).flushed 2 t = ((cfg2.win 2).blk t).view.read (Elt Ideal)
      (rowsByCols (φ₁ := .f32) (φ₂ := .f32) (V c (Pipeline.arrRef spec2 0)) (V c (Pipeline.arrRef spec2 1))) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  rw [block_product]
  obtain ⟨e0, e1, e2, e3, e4, e5⟩ := index_maps t
  have ht : t.val < 10 := by have h := t.isLt; have hN : cfg2.N = 10 := N_2; omega
  funext j
  show rowsByCols (φ₁ := .f32) (φ₂ := .f32) (iblk2 V c 0 t) (iblk2 V c 1 t) j
    = rowsByCols (φ₁ := .f32) (φ₂ := .f32) (V c main_v49) (V c main_arg7) (((cfg2.win 2).blk t).view.emb j)
  refine rows_of_product (V c main_v49) (V c main_arg7) (iblk2 V c 0 t) (iblk2 V c 1 t) t.val ht ?_ ?_ j _ ?_ ?_
  · intro r k
    show V c main_v49 (((cfg2.win 0).blk t).view.emb (ix2 r k)) = _
    refine congrArg (V c main_v49) ?_
    funext a; apply Fin.ext
    match a with
    | ⟨0, _⟩ => show win2_0.index t (0 : Fin 2) * 5000 + 1 * r.val = t.val * 5000 + r.val; omega
    | ⟨1, _⟩ => show win2_0.index t (1 : Fin 2) * 128 + 1 * k.val = k.val; omega
  · funext y
    show V c main_arg7 (((cfg2.win 1).blk t).view.emb y) = V c main_arg7 y
    refine congrArg (V c main_arg7) ?_
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show win2_2.index t (0 : Fin 2) * 5000 + 1 * (j 0).val = t.val * 5000 + (j 0).val; omega
  · show win2_2.index t (1 : Fin 2) * 128 + 1 * (j 1).val = (j 1).val; omega

/-- An index of the output array lies in point `t`'s block iff each coordinate lies in the block's range. -/
theorem in_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v50).slice (win2_2.rect t)).set ↔ _
  rw [View.set_slice_whole, Rect.mem_set_unit]
  exact Iff.rfl

/-- The ten row blocks tile the output: row `r` is in block `r / 5000`. -/
theorem tiled (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  have hlt : (i 0).val / 5000 < cfg2.N := by rw [hN]; omega
  refine ⟨⟨(i 0).val / 5000, hlt⟩, flush2_2 _, ?_⟩
  rw [in_block]
  obtain ⟨e0, e1, e2, e3, e4, e5⟩ := index_maps ⟨(i 0).val / 5000, hlt⟩
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 128 ≤ (i 1).val
      ∧ (i 1).val < win2_2.index ⟨(i 0).val / 5000, hlt⟩ (1 : Fin 2) * 128 + 128
    rw [e5]; omega

/-- The output array after the region: the product, rows by columns, of the two arrays the region finds. -/
theorem product (c : Dev nD) :
    (dat2 V c).arrAt 2 cfg2.N = rowsByCols (φ₁ := .f32) (φ₂ := .f32) (V c (Pipeline.arrRef spec2 0)) (V c (Pipeline.arrRef spec2 1)) :=
  (dat2 V c).arrAt_eq_of_cover 2 _ (fun t _ => written_back V c t) tiled

end Cert.KernelIdeal.Dense2

end
-- ==== Proof.Norm3.lean ====
/-
  A normalisation region, one block of rows at a time, is the normalisation of every row of the whole array.

  The region runs over ten grid points. Point `t` is handed rows `5000·t … 5000·t + 4999` of the array
  `A : [50000, 128]` and the three rows `b`, `g`, `be : [1, 128]` whole, adds the bias row, takes each row's mean and mean
  square over its 128 lanes, normalises, scales, shifts and clips at zero, and writes the block back as the same rows of
  the output. Each output row depends on the same row of `A` only, and the ten row blocks tile the output, so the
  output array ends holding `normRows A b g be`.
-/
import proofs.«105438_j15504831939241_1_alg».proof.Proof.Gen.KernelIdeal.Frame
import proofs.«105438_j15504831939241_1_alg».proof.Proof.Spec
import Idealize.ShloMosaic.Lib.Pipeline.Value
import Idealize.ShloMosaic.Lib.ValueIdx

noncomputable section

namespace Cert.KernelIdeal.Norm3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowNorm Cert.Spec

variable (V : (c : Dev nD) → (b : Ref sig .tc) → Buf (Elt Ideal) ((c : Thread nD τ).loc b))

theorem origin : (![0, 0] : Fin 2 → Nat) = fun _ => 0 := funext fun a => by fin_cases a <;> rfl

/-- What one grid point computes from its four blocks: the block normalised row by row. -/
theorem block_norm (v0 : Vec Ideal S5000x128 .f32) (v2 v22 v26 : Vec Ideal S1x128 .f32) :
    k3_pay1 (F := Ideal) v0 v2 v22 v26
      = normBlock v0 v2 v22 v26 0x43000000#32 0x3727C5AC#32 0x00000000#32 shapeCasts_S5000x128_S5000x128
          shapeCasts_S1x128_S1x128 broadcasts_S1x128_S5000x128 reduces_S5000x128_S5000 shapeCasts_S5000_S5000x1
          broadcasts_S5000x1_S5000x128 := rfl

/-- Rows `q·5000 + r` of the whole normalisation, from a block holding those rows of `A`. -/
theorem rows_of_norm (A : FVec Ideal S50000x128 .f32) (b g be : FVec Ideal S1x128 .f32)
    (ab : FVec Ideal S5000x128 .f32) (bb gb beb : FVec Ideal S1x128 .f32) (q : ℕ) (hq : q < 10)
    (ha : ∀ (r : Fin 5000) (k : Fin 128), ab (ix2 r k) = A (ix2 (⟨q * 5000 + r.val, by omega⟩ : Fin 50000) k))
    (hb : bb = b) (hg : gb = g) (hbe : beb = be) (r : Fin 5000) (k : Fin 128) (i : S50000x128.Idx)
    (hi0 : (i 0).val = q * 5000 + r.val) (hi1 : (i 1).val = k.val) :
    normBlock ab bb gb beb 0x43000000#32 0x3727C5AC#32 0x00000000#32 shapeCasts_S5000x128_S5000x128
        shapeCasts_S1x128_S1x128 broadcasts_S1x128_S5000x128 reduces_S5000x128_S5000 shapeCasts_S5000_S5000x1
        broadcasts_S5000x1_S5000x128 (ix2 r k)
      = normRows A b g be 0x43000000#32 0x3727C5AC#32 0x00000000#32 i := by
  subst hb hg hbe
  have e0 : i 0 = (⟨q * 5000 + r.val, by omega⟩ : Fin 50000) := Fin.ext hi0
  have e1 : i 1 = k := Fin.ext hi1
  rw [normBlock_apply]
  unfold normRows
  rw [e0, e1]
  exact congrArg (fun a => normRow _ _ _ a _ _ _ k) (funext fun l => ha r l)

/-- The printed index maps over the grid: the array's block and the output's block move together down the rows,
    point `t` at block `t`; the three rows stay at the origin. -/
theorem index_maps : ∀ t : Fin cfg3.N, win3_0.index t (0 : Fin 2) = t.val
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val
    ∧ win3_4.index t (1 : Fin 2) = 0 :=
  (by decide +kernel : ∀ t : Fin grid3.N, _)

/-- A window whose block is its whole one-row array reads that array. -/
theorem whole_row (c : Dev nD) (t : Fin cfg3.N) :
    iblk3 V c 1 t = V c main_v64 ∧ iblk3 V c 2 t = V c main_v65 ∧ iblk3 V c 3 t = V c main_v66 := by
  obtain ⟨e0, e1, e2, e3, e4, e5, e6, e7, e8, e9⟩ := index_maps t
  refine ⟨?_, ?_, ?_⟩
  · funext y
    show V c main_v64 (((cfg3.win 1).blk t).view.emb y) = V c main_v64 y
    refine congrArg (V c main_v64) ?_
    funext a; apply Fin.ext
    match a with
    | ⟨0, _⟩ => show win3_1.index t (0 : Fin 2) * 1 + 1 * (y 0).val = (y 0).val; omega
    | ⟨1, _⟩ => show win3_1.index t (1 : Fin 2) * 128 + 1 * (y 1).val = (y 1).val; omega
  · funext y
    show V c main_v65 (((cfg3.win 2).blk t).view.emb y) = V c main_v65 y
    refine congrArg (V c main_v65) ?_
    funext a; apply Fin.ext
    match a with
    | ⟨0, _⟩ => show win3_2.index t (0 : Fin 2) * 1 + 1 * (y 0).val = (y 0).val; omega
    | ⟨1, _⟩ => show win3_2.index t (1 : Fin 2) * 128 + 1 * (y 1).val = (y 1).val; omega
  · funext y
    show V c main_v66 (((cfg3.win 3).blk t).view.emb y) = V c main_v66 y
    refine congrArg (V c main_v66) ?_
    funext a; apply Fin.ext
    match a with
    | ⟨0, _⟩ => show win3_3.index t (0 : Fin 2) * 1 + 1 * (y 0).val = (y 0).val; omega
    | ⟨1, _⟩ => show win3_3.index t (1 : Fin 2) * 128 + 1 * (y 1).val = (y 1).val; omega

set_option maxHeartbeats 1000000 in
/-- What point `t` writes back is block `t` of the whole normalisation of the arrays the region finds. -/
theorem written_back (c : Dev nD) (t : Fin cfg3.N) :
    (dat3 V c).flushed 4 t = ((cfg3.win 4).blk t).view.read (Elt Ideal)
      (normRows (V c (Pipeline.arrRef spec3 0)) (V c (Pipeline.arrRef spec3 1)) (V c (Pipeline.arrRef spec3 2))
        (V c (Pipeline.arrRef spec3 3)) 0x43000000#32 0x3727C5AC#32 0x00000000#32) := by
  show (cfg3.win 4).cut (grid3.coords t) ((dat3 V c).after 4 t) = _
  rw [after3_4]
  unfold out3_4
  rw [View.canon_unit_zero origin]
  simp only [View.ld_unit_zero (S := S5000x128) origin, View.ld_unit_zero (S := S1x128) origin]
  rw [block_norm]
  obtain ⟨e0, e1, e2, e3, e4, e5, e6, e7, e8, e9⟩ := index_maps t
  obtain ⟨w1, w2, w3⟩ := whole_row V c t
  have ht : t.val < 10 := by have h := t.isLt; have hN : cfg3.N = 10 := N_3; omega
  funext j
  obtain ⟨r, k, rfl⟩ : ∃ (r : Fin 5000) (k : Fin 128), j = ix2 r k := ⟨j 0, j 1, eq_ix2 j⟩
  show normBlock (iblk3 V c 0 t) (iblk3 V c 1 t) (iblk3 V c 2 t) (iblk3 V c 3 t) 0x43000000#32 0x3727C5AC#32
      0x00000000#32 shapeCasts_S5000x128_S5000x128 shapeCasts_S1x128_S1x128 broadcasts_S1x128_S5000x128
      reduces_S5000x128_S5000 shapeCasts_S5000_S5000x1 broadcasts_S5000x1_S5000x128 (ix2 r k)
    = normRows (V c main_v63) (V c main_v64) (V c main_v65) (V c main_v66) 0x43000000#32 0x3727C5AC#32 0x00000000#32
        (((cfg3.win 4).blk t).view.emb (ix2 r k))
  refine rows_of_norm (V c main_v63) (V c main_v64) (V c main_v65) (V c main_v66) (iblk3 V c 0 t) (iblk3 V c 1 t)
    (iblk3 V c 2 t) (iblk3 V c 3 t) t.val ht ?_ w1 w2 w3 r k _ ?_ ?_
  · intro r k
    show V c main_v63 (((cfg3.win 0).blk t).view.emb (ix2 r k)) = _
    refine congrArg (V c main_v63) ?_
    funext a; apply Fin.ext
    match a with
    | ⟨0, _⟩ => show win3_0.index t (0 : Fin 2) * 5000 + 1 * r.val = t.val * 5000 + r.val; omega
    | ⟨1, _⟩ => show win3_0.index t (1 : Fin 2) * 128 + 1 * k.val = k.val; omega
  · show win3_4.index t (0 : Fin 2) * 5000 + 1 * r.val = t.val * 5000 + r.val; omega
  · show win3_4.index t (1 : Fin 2) * 128 + 1 * k.val = k.val; omega

/-- An index of the output array lies in point `t`'s block iff each coordinate lies in the block's range. -/
theorem in_block (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v67).slice (win3_4.rect t)).set ↔ _
  rw [View.set_slice_whole, Rect.mem_set_unit]
  exact Iff.rfl

/-- The ten row blocks tile the output: row `r` is in block `r / 5000`. -/
theorem tiled (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  have hlt : (i 0).val / 5000 < cfg3.N := by rw [hN]; omega
  refine ⟨⟨(i 0).val / 5000, hlt⟩, flush3_4 _, ?_⟩
  rw [in_block]
  obtain ⟨e0, e1, e2, e3, e4, e5, e6, e7, e8, e9⟩ := index_maps ⟨(i 0).val / 5000, hlt⟩
  intro a
  match a with
  | ⟨0, _⟩ =>
    show win3_4.index ⟨(i 0).val / 5000, hlt⟩ (0 : Fin 2) * 5000 ≤ (i 0).val
      ∧ (i 0).val < win3_4.index ⟨(i 0).val / 5000, hlt⟩ (0 : Fin 2) * 5000 + 5000
    rw [e8]; show (i 0).val / 5000 * 5000 ≤ (i 0).val ∧ (i 0).val < (i 0).val / 5000 * 5000 + 5000; omega
  | ⟨1, _⟩ =>
    show win3_4.index ⟨(i 0).val / 5000, hlt⟩ (1 : Fin 2) * 128 ≤ (i 1).val
      ∧ (i 1).val < win3_4.index ⟨(i 0).val / 5000, hlt⟩ (1 : Fin 2) * 128 + 128
    rw [e9]; omega

/-- The output array after the region: every row of the first array normalised with the three rows. -/
theorem normalised (c : Dev nD) :
    (dat3 V c).arrAt 4 cfg3.N
      = normRows (V c (Pipeline.arrRef spec3 0)) (V c (Pipeline.arrRef spec3 1)) (V c (Pipeline.arrRef spec3 2))
          (V c (Pipeline.arrRef spec3 3)) 0x43000000#32 0x3727C5AC#32 0x00000000#32 :=
  (dat3 V c).arrAt_eq_of_cover 4 _ (fun t _ => written_back V c t) tiled

end Cert.KernelIdeal.Norm3

end
-- ==== Proof.Head4.lean ====
/-
  The last region: mean pool and the final dense layer, in one grid point.

  The region has a single grid point, which is handed its four arrays whole — the per-graph sums `S : [64, 128]`, the
  per-graph counts as a column `cnt : [64, 1]`, the weights `W : [128, 10]` and the bias row `b : [1, 10]` — raises each
  count to at least one, divides each row of sums by its count, multiplies the quotient into `W` on the matrix unit into
  a zero accumulator, adds the bias row, and writes the `64 × 10` result back whole. The change of format before the
  multiplication is the identity on the extended reals, so the output array ends holding `pooledHead S cnt W b`.
-/
import proofs.«105438_j15504831939241_1_alg».proof.Proof.Gen.KernelIdeal.Frame
import proofs.«105438_j15504831939241_1_alg».proof.Proof.Spec
import proofs.«105438_j15504831939241_1_alg».proof.Proof.LibPlainProduct
import Idealize.ShloMosaic.Lib.Pipeline.Value
import Idealize.ShloMosaic.Lib.ValueIdx
import Idealize.ShloMosaic.Lib.ValueLayout

noncomputable section

open scoped BigOperators

namespace Cert.KernelIdeal.Head4

open Idealize.ShloMosaic Idealize.ShloMosaic.TcCoe Idealize.ShloMosaic.ValueIdx Idealize.ShloMosaic.PlainProduct Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl

/-- What the grid point computes from its four blocks, entry by entry. -/
theorem block_head (v0 : Vec Ideal S64x1 .f32) (v4 : Vec Ideal S64x128 .f32) (v9 : Vec Ideal S128x10 .f32)
    (v12 : Vec Ideal S1x10 .f32) :
    k4_pay1 (F := Ideal) v0 v4 v9 v12 = pooledHead v4 v0 v9 v12 0x3F800000#32 := by
  funext i
  obtain ⟨r, c, rfl⟩ : ∃ (r : Fin 64) (c : Fin 10), i = ix2 r c := ⟨i 0, i 1, eq_ix2 i⟩
  unfold k4_pay1 pooledHead
  refine congrArg₂ (· + ·) ?_ ?_
  · refine (congrFun (matmul_zero_plain none _ _) (ix2 r c)).trans ?_
    refine Finset.sum_congr rfl fun k _ => ?_
    refine congrArg₂ (· * ·) ?_ rfl
    refine congrArg₂ Ideal.div (congrFun (shapeCast_self v4 shapeCasts_S64x128_S64x128) (ix2 r k)) ?_
    refine (Cert.LibLayout.broadcastTo_a1_ab_apply _ broadcasts_S64x1_S64x128 r k).trans ?_
    exact congrArg (fun a => max a (Ideal.ofBits .f32 0x3F800000#32))
      (congrFun (shapeCast_self v0 shapeCasts_S64x1_S64x1) (ix2 r (0 : Fin 1)))
  · exact (broadcastTo_1b_ab_apply _ broadcasts_S1x10_S64x10 r c).trans
      (congrFun (shapeCast_self v12 shapeCasts_S1x10_S1x10) (ix2 (0 : Fin 1) c))

/-- Blocks that are the whole arrays give the whole result. -/
theorem of_whole (S sb : FVec Ideal S64x128 .f32) (cnt cb : FVec Ideal S64x1 .f32) (W wb : FVec Ideal S128x10 .f32)
    (b bb : FVec Ideal S1x10 .f32) (h0 : sb = S) (h1 : cb = cnt) (h2 : wb = W) (h3 : bb = b) (j i : S64x10.Idx)
    (hji : i = j) : pooledHead sb cb wb bb 0x3F800000#32 j = pooledHead S cnt W b 0x3F800000#32 i := by
  subst h0 h1 h2 h3 hji; rfl

/-- The printed index maps at the one grid point: every block at the origin. -/
theorem index_maps : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Window 0's block at the one point is its whole array. -/
theorem whole0 (c : Dev nD) (t : Fin cfg4.N) : iblk4 V c 0 t = V c main_v70 := by
  obtain ⟨e0, e1, e2, e3, e4, e5, e6, e7, e8, e9⟩ := index_maps t
  funext y
  show V c main_v70 (((cfg4.win 0).blk t).view.emb y) = V c main_v70 y
  refine congrArg (V c main_v70) ?_
  funext a; apply Fin.ext
  match a with
  | ⟨0, _⟩ => show win4_0.index t (0 : Fin 2) * 64 + 1 * (y 0).val = (y 0).val; omega
  | ⟨1, _⟩ => show win4_0.index t (1 : Fin 2) * 128 + 1 * (y 1).val = (y 1).val; omega

/-- Window 1's block at the one point is its whole array. -/
theorem whole1 (c : Dev nD) (t : Fin cfg4.N) : iblk4 V c 1 t = V c main_v75 := by
  obtain ⟨e0, e1, e2, e3, e4, e5, e6, e7, e8, e9⟩ := index_maps t
  funext y
  show V c main_v75 (((cfg4.win 1).blk t).view.emb y) = V c main_v75 y
  refine congrArg (V c main_v75) ?_
  funext a; apply Fin.ext
  match a with
  | ⟨0, _⟩ => show win4_1.index t (0 : Fin 2) * 64 + 1 * (y 0).val = (y 0).val; omega
  | ⟨1, _⟩ => show win4_1.index t (1 : Fin 2) * 1 + 1 * (y 1).val = (y 1).val; omega

/-- Window 2's block at the one point is its whole array. -/
theorem whole2 (c : Dev nD) (t : Fin cfg4.N) : iblk4 V c 2 t = V c main_arg11 := by
  obtain ⟨e0, e1, e2, e3, e4, e5, e6, e7, e8, e9⟩ := index_maps t
  funext y
  show V c main_arg11 (((cfg4.win 2).blk t).view.emb y) = V c main_arg11 y
  refine congrArg (V c main_arg11) ?_
  funext a; apply Fin.ext
  match a with
  | ⟨0, _⟩ => show win4_2.index t (0 : Fin 2) * 128 + 1 * (y 0).val = (y 0).val; omega
  | ⟨1, _⟩ => show win4_2.index t (1 : Fin 2) * 10 + 1 * (y 1).val = (y 1).val; omega

/-- Window 3's block at the one point is its whole array. -/
theorem whole3 (c : Dev nD) (t : Fin cfg4.N) : iblk4 V c 3 t = V c main_v76 := by
  obtain ⟨e0, e1, e2, e3, e4, e5, e6, e7, e8, e9⟩ := index_maps t
  funext y
  show V c main_v76 (((cfg4.win 3).blk t).view.emb y) = V c main_v76 y
  refine congrArg (V c main_v76) ?_
  funext a; apply Fin.ext
  match a with
  | ⟨0, _⟩ => show win4_3.index t (0 : Fin 2) * 1 + 1 * (y 0).val = (y 0).val; omega
  | ⟨1, _⟩ => show win4_3.index t (1 : Fin 2) * 10 + 1 * (y 1).val = (y 1).val; omega

set_option maxHeartbeats 1000000 in
/-- What the point writes back is the whole result of the arrays the region finds. -/
theorem written_back (c : Dev nD) (t : Fin cfg4.N) :
    (dat4 V c).flushed 4 t = ((cfg4.win 4).blk t).view.read (Elt Ideal)
      (pooledHead (V c (Pipeline.arrRef spec4 0)) (V c (Pipeline.arrRef spec4 1)) (V c (Pipeline.arrRef spec4 2))
        (V c (Pipeline.arrRef spec4 3)) 0x3F800000#32) := by
  show (cfg4.win 4).cut (grid4.coords t) ((dat4 V c).after 4 t) = _
  rw [after4_4]
  unfold out4_4
  rw [View.canon_unit_zero origin]
  simp only [View.ld_unit_zero (S := S64x128) origin, View.ld_unit_zero (S := S64x1) origin,
    View.ld_unit_zero (S := S128x10) origin, View.ld_unit_zero (S := S1x10) origin]
  rw [block_head]
  obtain ⟨e0, e1, e2, e3, e4, e5, e6, e7, e8, e9⟩ := index_maps t
  funext j
  show pooledHead (iblk4 V c 0 t) (iblk4 V c 1 t) (iblk4 V c 2 t) (iblk4 V c 3 t) 0x3F800000#32 j
    = pooledHead (V c main_v70) (V c main_v75) (V c main_arg11) (V c main_v76) 0x3F800000#32
        (((cfg4.win 4).blk t).view.emb j)
  refine of_whole (V c main_v70) (iblk4 V c 0 t) (V c main_v75) (iblk4 V c 1 t) (V c main_arg11) (iblk4 V c 2 t)
    (V c main_v76) (iblk4 V c 3 t) (whole0 V c t) (whole1 V c t) (whole2 V c t) (whole3 V c t) j _ ?_
  funext a; apply Fin.ext
  match a with
  | ⟨0, _⟩ => show win4_4.index t (0 : Fin 2) * 64 + 1 * (j 0).val = (j 0).val; omega
  | ⟨1, _⟩ => show win4_4.index t (1 : Fin 2) * 10 + 1 * (j 1).val = (j 1).val; omega

/-- An index of the output array lies in the point's block iff each coordinate lies in the block's range. -/
theorem in_block (t : Fin cfg4.N) (i : S64x10.Idx) :
    i ∈ ((cfg4.win 4).blk t).view.set ↔ ∀ a : Fin 2, win4_4.index t a * S64x10.size a ≤ (i a).val
      ∧ (i a).val < win4_4.index t a * S64x10.size a + S64x10.size a := by
  show i ∈ ((View.whole main_v77).slice (win4_4.rect t)).set ↔ _
  rw [View.set_slice_whole, Rect.mem_set_unit]
  exact Iff.rfl

/-- The one block is the whole output. -/
theorem tiled (i : S64x10.Idx) :
    ∃ t : Fin cfg4.N, (cfg4.win 4).flush t = true ∧ i ∈ ((cfg4.win 4).blk t).view.set := by
  have hi0 : (i 0).val < 64 := (i 0).isLt
  have hi1 : (i 1).val < 10 := (i 1).isLt
  refine ⟨t4_0, flush4_4 _, ?_⟩
  rw [in_block]
  obtain ⟨e0, e1, e2, e3, e4, e5, e6, e7, e8, e9⟩ := index_maps t4_0
  intro a
  match a with
  | ⟨0, _⟩ =>
    show win4_4.index t4_0 (0 : Fin 2) * 64 ≤ (i 0).val ∧ (i 0).val < win4_4.index t4_0 (0 : Fin 2) * 64 + 64
    rw [e8]; omega
  | ⟨1, _⟩ =>
    show win4_4.index t4_0 (1 : Fin 2) * 10 ≤ (i 1).val ∧ (i 1).val < win4_4.index t4_0 (1 : Fin 2) * 10 + 10
    rw [e9]; omega

/-- The output array after the region. -/
theorem pooled (c : Dev nD) :
    (dat4 V c).arrAt 4 cfg4.N
      = pooledHead (V c (Pipeline.arrRef spec4 0)) (V c (Pipeline.arrRef spec4 1)) (V c (Pipeline.arrRef spec4 2))
          (V c (Pipeline.arrRef spec4 3)) 0x3F800000#32 :=
  (dat4 V c).arrAt_eq_of_cover 4 _ (fun t _ => written_back V c t) tiled

end Cert.KernelIdeal.Head4

end
-- ==== Proof.RefStages.lean ====
/-
  The reference network, stage by stage, as whole-array functions of its arguments on the extended reals.

  The reference is a two-layer graph network. A layer multiplies the node features into a weight matrix, gathers and
  scatters the products over the edges, and then treats every row of the aggregated block alike: the bias row is added,
  the row is centred on its mean over the 128 lanes and divided by the square root of its mean square plus a small
  offset, the gain row multiplies it, the offset row is added, and the result is clipped at zero. After the second
  layer the rows are summed per graph, each sum is divided by its graph's count (at least one), multiplied into the
  last weight matrix and shifted by the last bias row.

  Five facts are proved here, each reading the reference's operations one at a time at an index:
  * `dense1`, `dense2`: each layer's first product is the product rows by columns, `rowsByCols`;
  * `norm1`, `norm2`: each layer's last block, at row `r`, lane `k`, is `normRow` of row `r` of the aggregated block;
  * `head`: the result at graph `r`, class `c`, is `(∑ₖ S (r, k) / max (cnt r) 1 · W (k, c)) + b c`.
  Every step is the same operation on both sides; nothing needs an entry to be finite. The two sums over a row start
  from the zero word, which is `0`.
-/
import proofs.«105438_j15504831939241_1_alg».proof.Proof.RefRead
import proofs.«105438_j15504831939241_1_alg».proof.Proof.LibPlainProduct
import proofs.«105438_j15504831939241_1_alg».proof.Proof.LibRowNorm
import Idealize.ShloMosaic.Lib.ValueIdx
import Idealize.ShloMosaic.PureOps.Ideal.Laws

noncomputable section

open scoped BigOperators

namespace Cert.RefStages

open Cert.ReferenceIdeal Cert.ReferenceIdeal.Read Idealize.ShloMosaic Idealize.ShloMosaic.ValueIdx
open Idealize.ShloMosaic.PlainProduct

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x128, .f32⟩ : BufTy).Contents (Elt Ideal))
  (x4 x5 x6 : (⟨S128, .f32⟩ : BufTy).Contents (Elt Ideal)) (x7 : (⟨S128x128, .f32⟩ : BufTy).Contents (Elt Ideal))
  (x8 x9 x10 : (⟨S128, .f32⟩ : BufTy).Contents (Elt Ideal)) (x11 : (⟨S128x10, .f32⟩ : BufTy).Contents (Elt Ideal))
  (x12 : (⟨S10, .f32⟩ : BufTy).Contents (Elt Ideal))

/-! ### The two dense products -/

/-- The first layer's product is the product rows by columns of the features and the first weight matrix. -/
theorem dense1 : val_main_v32 (F := Ideal) x0 x3 = rowsByCols (φ₁ := .f32) (φ₂ := .f32) x0 x3 := by
  unfold val_main_v32
  exact dotGeneral_plain none _ x0 x3

/-- The second layer's product is the product rows by columns of the first layer's result and the second weight
    matrix. -/
theorem dense2 : val_main_v106 (F := Ideal) x0 x1 x3 x4 x5 x6 x7
    = rowsByCols (φ₁ := .f32) (φ₂ := .f32) (val_main_v73 (F := Ideal) x0 x1 x3 x4 x5 x6) x7 := by
  unfold val_main_v106
  exact dotGeneral_plain none _ (val_main_v73 (F := Ideal) x0 x1 x3 x4 x5 x6) x7

/-! ### A row's mean and scale -/

/-- The mean over the 128 lanes of the row `a` shifted by `b`. -/
def mean128 (a b : Fin 128 → EReal) : EReal :=
  Ideal.div (∑ j, (a j + b j)) (Ideal.ofBits .f32 0x43000000#32)

/-- The reciprocal square root of the mean square of the centred row plus the small offset. -/
def scale128 (a b : Fin 128 → EReal) : EReal :=
  Ideal.rsqrt (Ideal.div (∑ j, (a j + b j - mean128 a b) * (a j + b j - mean128 a b)) (Ideal.ofBits .f32 0x43000000#32)
    + Ideal.ofBits .f32 0x3727C5AC#32)

/-! ### Layer 1: each row of the aggregated block is shifted by the bias row, centred on its mean, divided by the
    square root of its mean square plus the small offset, scaled by the gain row, shifted by the offset row and clipped
    at zero. The block operations are read one at a time at row `r`, lane `k`. -/

/-- The bias row repeated down the block: at row `r`, lane `k`, the bias at `k`. -/
theorem biasRow1 (r : Fin 50000) (k : Fin 128) : val_main_v47 (F := Ideal) x4 (ix2 r k) = x4 (ix1 k) :=
  (val_main_v47_apply (F := Ideal) x4 (ix2 r k)).trans ((val_main_v46_apply (F := Ideal) x4 _).trans
    (congrArg x4 (funext fun a => Fin.ext (by match a with | ⟨0, _⟩ => rfl))))

/-- The gain row repeated down the block: at row `r`, lane `k`, the gain at `k`. -/
theorem gainRow1 (r : Fin 50000) (k : Fin 128) : val_main_v68 (F := Ideal) x5 (ix2 r k) = x5 (ix1 k) :=
  (val_main_v68_apply (F := Ideal) x5 (ix2 r k)).trans ((val_main_v67_apply (F := Ideal) x5 _).trans
    (congrArg x5 (funext fun a => Fin.ext (by match a with | ⟨0, _⟩ => rfl))))

/-- The offset row repeated down the block: at row `r`, lane `k`, the offset at `k`. -/
theorem offsetRow1 (r : Fin 50000) (k : Fin 128) : val_main_v71 (F := Ideal) x6 (ix2 r k) = x6 (ix1 k) :=
  (val_main_v71_apply (F := Ideal) x6 (ix2 r k)).trans ((val_main_v70_apply (F := Ideal) x6 _).trans
    (congrArg x6 (funext fun a => Fin.ext (by match a with | ⟨0, _⟩ => rfl))))

/-- The shifted block at row `r`, lane `k`: the aggregated entry plus the bias. -/
theorem shifted1 (r : Fin 50000) (k : Fin 128) :
    val_main_v48 (F := Ideal) x0 x1 x3 x4 (ix2 r k) = val_main_v45 (F := Ideal) x0 x1 x3 (ix2 r k) + x4 (ix1 k) := by
  rw [val_main_v48_apply, biasRow1] <;> rfl

/-- The positions a row sum runs over are the lanes of the row. -/
theorem laneIdx1 (r : Fin 50000) (j : Fin 128) : idx_main_v49 (ix1 r) j = ix2 r j :=
  funext fun a => Fin.ext (by match a with | ⟨0, _⟩ => rfl | ⟨1, _⟩ => rfl)

/-- The sum of row `r` of the shifted block (the sum starts from the zero word, which is `0`). -/
theorem rowSum1 (r : Fin 50000) :
    val_main_v49 (F := Ideal) x0 x1 x3 x4 (ix1 r) = ∑ j : Fin 128, (val_main_v45 (F := Ideal) x0 x1 x3 (ix2 r j) + x4 (ix1 j)) := by
  rw [val_main_v49_apply, val_main_cst_10_apply]
  show Ideal.ofBits .f32 0x00000000#32 + _ = _
  rw [Ideal.ofBits_zero_f32, zero_add]
  refine Finset.sum_congr rfl fun j _ => ?_
  rw [laneIdx1, shifted1] <;> rfl

/-- An entry of the column of sums is the sum of its row. -/
theorem colIdx1 (r : Fin 50000) (u : Fin 1) : idx_main_v50 (ix2 r u) = ix1 r :=
  funext fun a => Fin.ext (by match a with | ⟨0, _⟩ => rfl)

/-- The mean of row `r`: the row sum divided by the number of lanes. -/
theorem rowMean1 (r : Fin 50000) (u : Fin 1) :
    val_main_v52 (F := Ideal) x0 x1 x3 x4 (ix2 r u) = mean128 (fun j : Fin 128 => val_main_v45 (F := Ideal) x0 x1 x3 (ix2 r j)) (fun j : Fin 128 => x4 (ix1 j)) := by
  rw [val_main_v52_apply, val_main_v50_apply, colIdx1, rowSum1, val_main_v51_apply, val_main_cst_11_apply] <;> rfl

/-- The column of means repeated along the lanes: at row `r`, lane `k`, the mean of row `r`. -/
theorem meanRepIdx1 (r : Fin 50000) (k : Fin 128) : idx_main_v53 (ix2 r k) = ix2 r (0 : Fin 1) :=
  funext fun a => Fin.ext (by match a with | ⟨0, _⟩ => rfl | ⟨1, _⟩ => rfl)

/-- The same for the second copy of the repeated column of means. -/
theorem meanRepIdx'1 (r : Fin 50000) (k : Fin 128) : idx_main_v60 (ix2 r k) = ix2 r (0 : Fin 1) :=
  funext fun a => Fin.ext (by match a with | ⟨0, _⟩ => rfl | ⟨1, _⟩ => rfl)

/-- The centred block at row `r`, lane `k`: the shifted entry minus the mean of its row. -/
theorem centred1 (r : Fin 50000) (k : Fin 128) :
    val_main_v54 (F := Ideal) x0 x1 x3 x4 (ix2 r k) = (val_main_v45 (F := Ideal) x0 x1 x3 (ix2 r k) + x4 (ix1 k) - mean128 (fun j : Fin 128 => val_main_v45 (F := Ideal) x0 x1 x3 (ix2 r j)) (fun j : Fin 128 => x4 (ix1 j))) := by
  rw [val_main_v54_apply, shifted1, val_main_v53_apply, meanRepIdx1, rowMean1] <;> rfl

/-- The second copy of the centred block is the same. -/
theorem centred'1 (r : Fin 50000) (k : Fin 128) :
    val_main_v61 (F := Ideal) x0 x1 x3 x4 (ix2 r k) = (val_main_v45 (F := Ideal) x0 x1 x3 (ix2 r k) + x4 (ix1 k) - mean128 (fun j : Fin 128 => val_main_v45 (F := Ideal) x0 x1 x3 (ix2 r j)) (fun j : Fin 128 => x4 (ix1 j))) := by
  rw [val_main_v61_apply, shifted1, val_main_v60_apply, meanRepIdx'1, rowMean1] <;> rfl

/-- The positions the sum of squares runs over are the lanes of the row. -/
theorem laneIdx'1 (r : Fin 50000) (j : Fin 128) : idx_main_v56 (ix1 r) j = ix2 r j :=
  funext fun a => Fin.ext (by match a with | ⟨0, _⟩ => rfl | ⟨1, _⟩ => rfl)

/-- The sum of the squares of row `r` of the centred block. -/
theorem sqSum1 (r : Fin 50000) :
    val_main_v56 (F := Ideal) x0 x1 x3 x4 (ix1 r) = ∑ j : Fin 128, (val_main_v45 (F := Ideal) x0 x1 x3 (ix2 r j) + x4 (ix1 j) - mean128 (fun j : Fin 128 => val_main_v45 (F := Ideal) x0 x1 x3 (ix2 r j)) (fun j : Fin 128 => x4 (ix1 j))) * (val_main_v45 (F := Ideal) x0 x1 x3 (ix2 r j) + x4 (ix1 j) - mean128 (fun j : Fin 128 => val_main_v45 (F := Ideal) x0 x1 x3 (ix2 r j)) (fun j : Fin 128 => x4 (ix1 j))) := by
  rw [val_main_v56_apply, val_main_cst_12_apply]
  show Ideal.ofBits .f32 0x00000000#32 + _ = _
  rw [Ideal.ofBits_zero_f32, zero_add]
  refine Finset.sum_congr rfl fun j _ => ?_
  rw [laneIdx'1, val_main_v55_apply, centred1] <;> rfl

/-- An entry of the column of sums of squares is the sum of squares of its row. -/
theorem colIdx'1 (r : Fin 50000) (u : Fin 1) : idx_main_v57 (ix2 r u) = ix1 r :=
  funext fun a => Fin.ext (by match a with | ⟨0, _⟩ => rfl)

/-- The scale of row `r`: the reciprocal square root of the mean square plus the small offset. -/
theorem rowScale1 (r : Fin 50000) (u : Fin 1) :
    val_main_v64 (F := Ideal) x0 x1 x3 x4 (ix2 r u) = scale128 (fun j : Fin 128 => val_main_v45 (F := Ideal) x0 x1 x3 (ix2 r j)) (fun j : Fin 128 => x4 (ix1 j)) := by
  rw [val_main_v64_apply, val_main_v63_apply, val_main_v59_apply, val_main_v57_apply, colIdx'1, sqSum1, val_main_v58_apply,
    val_main_cst_13_apply, val_main_v62_apply, val_main_cst_14_apply] <;> rfl

/-- The column of scales repeated along the lanes: at row `r`, lane `k`, the scale of row `r`. -/
theorem scaleRepIdx1 (r : Fin 50000) (k : Fin 128) : idx_main_v65 (ix2 r k) = ix2 r (0 : Fin 1) :=
  funext fun a => Fin.ext (by match a with | ⟨0, _⟩ => rfl | ⟨1, _⟩ => rfl)

/-- Layer 1 at row `r`, lane `k` is row `r` of the aggregated block normalised, scaled, shifted and clipped at zero. -/
theorem norm1 (r : Fin 50000) (k : Fin 128) :
    val_main_v73 (F := Ideal) x0 x1 x3 x4 x5 x6 (ix2 r k)
      = Cert.RowNorm.normRow (Ideal.ofBits .f32 0x43000000#32) (Ideal.ofBits .f32 0x3727C5AC#32) (Ideal.ofBits .f32 0x00000000#32)
          (fun j : Fin 128 => val_main_v45 (F := Ideal) x0 x1 x3 (ix2 r j)) (fun j : Fin 128 => x4 (ix1 j)) (fun j : Fin 128 => x5 (ix1 j)) (fun j : Fin 128 => x6 (ix1 j)) k := by
  rw [val_main_v73_apply, val_main_v72_apply, val_main_v69_apply, val_main_v66_apply, centred'1, val_main_v65_apply, scaleRepIdx1, rowScale1,
    gainRow1, offsetRow1, val_main_call1_v0_apply, val_main_call1_cst_apply] <;> rfl

/-! ### Layer 2: each row of the aggregated block is shifted by the bias row, centred on its mean, divided by the
    square root of its mean square plus the small offset, scaled by the gain row, shifted by the offset row and clipped
    at zero. The block operations are read one at a time at row `r`, lane `k`. -/

/-- The bias row repeated down the block: at row `r`, lane `k`, the bias at `k`. -/
theorem biasRow2 (r : Fin 50000) (k : Fin 128) : val_main_v121 (F := Ideal) x8 (ix2 r k) = x8 (ix1 k) :=
  (val_main_v121_apply (F := Ideal) x8 (ix2 r k)).trans ((val_main_v120_apply (F := Ideal) x8 _).trans
    (congrArg x8 (funext fun a => Fin.ext (by match a with | ⟨0, _⟩ => rfl))))

/-- The gain row repeated down the block: at row `r`, lane `k`, the gain at `k`. -/
theorem gainRow2 (r : Fin 50000) (k : Fin 128) : val_main_v142 (F := Ideal) x9 (ix2 r k) = x9 (ix1 k) :=
  (val_main_v142_apply (F := Ideal) x9 (ix2 r k)).trans ((val_main_v141_apply (F := Ideal) x9 _).trans
    (congrArg x9 (funext fun a => Fin.ext (by match a with | ⟨0, _⟩ => rfl))))

/-- The offset row repeated down the block: at row `r`, lane `k`, the offset at `k`. -/
theorem offsetRow2 (r : Fin 50000) (k : Fin 128) : val_main_v145 (F := Ideal) x10 (ix2 r k) = x10 (ix1 k) :=
  (val_main_v145_apply (F := Ideal) x10 (ix2 r k)).trans ((val_main_v144_apply (F := Ideal) x10 _).trans
    (congrArg x10 (funext fun a => Fin.ext (by match a with | ⟨0, _⟩ => rfl))))

/-- The shifted block at row `r`, lane `k`: the aggregated entry plus the bias. -/
theorem shifted2 (r : Fin 50000) (k : Fin 128) :
    val_main_v122 (F := Ideal) x0 x1 x3 x4 x5 x6 x7 x8 (ix2 r k) = val_main_v119 (F := Ideal) x0 x1 x3 x4 x5 x6 x7 (ix2 r k) + x8 (ix1 k) := by
  rw [val_main_v122_apply, biasRow2] <;> rfl

/-- The positions a row sum runs over are the lanes of the row. -/
theorem laneIdx2 (r : Fin 50000) (j : Fin 128) : idx_main_v123 (ix1 r) j = ix2 r j :=
  funext fun a => Fin.ext (by match a with | ⟨0, _⟩ => rfl | ⟨1, _⟩ => rfl)

/-- The sum of row `r` of the shifted block (the sum starts from the zero word, which is `0`). -/
theorem rowSum2 (r : Fin 50000) :
    val_main_v123 (F := Ideal) x0 x1 x3 x4 x5 x6 x7 x8 (ix1 r) = ∑ j : Fin 128, (val_main_v119 (F := Ideal) x0 x1 x3 x4 x5 x6 x7 (ix2 r j) + x8 (ix1 j)) := by
  rw [val_main_v123_apply, val_main_cst_27_apply]
  show Ideal.ofBits .f32 0x00000000#32 + _ = _
  rw [Ideal.ofBits_zero_f32, zero_add]
  refine Finset.sum_congr rfl fun j _ => ?_
  rw [laneIdx2, shifted2] <;> rfl

/-- An entry of the column of sums is the sum of its row. -/
theorem colIdx2 (r : Fin 50000) (u : Fin 1) : idx_main_v124 (ix2 r u) = ix1 r :=
  funext fun a => Fin.ext (by match a with | ⟨0, _⟩ => rfl)

/-- The mean of row `r`: the row sum divided by the number of lanes. -/
theorem rowMean2 (r : Fin 50000) (u : Fin 1) :
    val_main_v126 (F := Ideal) x0 x1 x3 x4 x5 x6 x7 x8 (ix2 r u) = mean128 (fun j : Fin 128 => val_main_v119 (F := Ideal) x0 x1 x3 x4 x5 x6 x7 (ix2 r j)) (fun j : Fin 128 => x8 (ix1 j)) := by
  rw [val_main_v126_apply, val_main_v124_apply, colIdx2, rowSum2, val_main_v125_apply, val_main_cst_28_apply] <;> rfl

/-- The column of means repeated along the lanes: at row `r`, lane `k`, the mean of row `r`. -/
theorem meanRepIdx2 (r : Fin 50000) (k : Fin 128) : idx_main_v127 (ix2 r k) = ix2 r (0 : Fin 1) :=
  funext fun a => Fin.ext (by match a with | ⟨0, _⟩ => rfl | ⟨1, _⟩ => rfl)

/-- The same for the second copy of the repeated column of means. -/
theorem meanRepIdx'2 (r : Fin 50000) (k : Fin 128) : idx_main_v134 (ix2 r k) = ix2 r (0 : Fin 1) :=
  funext fun a => Fin.ext (by match a with | ⟨0, _⟩ => rfl | ⟨1, _⟩ => rfl)

/-- The centred block at row `r`, lane `k`: the shifted entry minus the mean of its row. -/
theorem centred2 (r : Fin 50000) (k : Fin 128) :
    val_main_v128 (F := Ideal) x0 x1 x3 x4 x5 x6 x7 x8 (ix2 r k) = (val_main_v119 (F := Ideal) x0 x1 x3 x4 x5 x6 x7 (ix2 r k) + x8 (ix1 k) - mean128 (fun j : Fin 128 => val_main_v119 (F := Ideal) x0 x1 x3 x4 x5 x6 x7 (ix2 r j)) (fun j : Fin 128 => x8 (ix1 j))) := by
  rw [val_main_v128_apply, shifted2, val_main_v127_apply, meanRepIdx2, rowMean2] <;> rfl

/-- The second copy of the centred block is the same. -/
theorem centred'2 (r : Fin 50000) (k : Fin 128) :
    val_main_v135 (F := Ideal) x0 x1 x3 x4 x5 x6 x7 x8 (ix2 r k) = (val_main_v119 (F := Ideal) x0 x1 x3 x4 x5 x6 x7 (ix2 r k) + x8 (ix1 k) - mean128 (fun j : Fin 128 => val_main_v119 (F := Ideal) x0 x1 x3 x4 x5 x6 x7 (ix2 r j)) (fun j : Fin 128 => x8 (ix1 j))) := by
  rw [val_main_v135_apply, shifted2, val_main_v134_apply, meanRepIdx'2, rowMean2] <;> rfl

/-- The positions the sum of squares runs over are the lanes of the row. -/
theorem laneIdx'2 (r : Fin 50000) (j : Fin 128) : idx_main_v130 (ix1 r) j = ix2 r j :=
  funext fun a => Fin.ext (by match a with | ⟨0, _⟩ => rfl | ⟨1, _⟩ => rfl)

/-- The sum of the squares of row `r` of the centred block. -/
theorem sqSum2 (r : Fin 50000) :
    val_main_v130 (F := Ideal) x0 x1 x3 x4 x5 x6 x7 x8 (ix1 r) = ∑ j : Fin 128, (val_main_v119 (F := Ideal) x0 x1 x3 x4 x5 x6 x7 (ix2 r j) + x8 (ix1 j) - mean128 (fun j : Fin 128 => val_main_v119 (F := Ideal) x0 x1 x3 x4 x5 x6 x7 (ix2 r j)) (fun j : Fin 128 => x8 (ix1 j))) * (val_main_v119 (F := Ideal) x0 x1 x3 x4 x5 x6 x7 (ix2 r j) + x8 (ix1 j) - mean128 (fun j : Fin 128 => val_main_v119 (F := Ideal) x0 x1 x3 x4 x5 x6 x7 (ix2 r j)) (fun j : Fin 128 => x8 (ix1 j))) := by
  rw [val_main_v130_apply, val_main_cst_29_apply]
  show Ideal.ofBits .f32 0x00000000#32 + _ = _
  rw [Ideal.ofBits_zero_f32, zero_add]
  refine Finset.sum_congr rfl fun j _ => ?_
  rw [laneIdx'2, val_main_v129_apply, centred2] <;> rfl

/-- An entry of the column of sums of squares is the sum of squares of its row. -/
theorem colIdx'2 (r : Fin 50000) (u : Fin 1) : idx_main_v131 (ix2 r u) = ix1 r :=
  funext fun a => Fin.ext (by match a with | ⟨0, _⟩ => rfl)

/-- The scale of row `r`: the reciprocal square root of the mean square plus the small offset. -/
theorem rowScale2 (r : Fin 50000) (u : Fin 1) :
    val_main_v138 (F := Ideal) x0 x1 x3 x4 x5 x6 x7 x8 (ix2 r u) = scale128 (fun j : Fin 128 => val_main_v119 (F := Ideal) x0 x1 x3 x4 x5 x6 x7 (ix2 r j)) (fun j : Fin 128 => x8 (ix1 j)) := by
  rw [val_main_v138_apply, val_main_v137_apply, val_main_v133_apply, val_main_v131_apply, colIdx'2, sqSum2, val_main_v132_apply,
    val_main_cst_30_apply, val_main_v136_apply, val_main_cst_31_apply] <;> rfl

/-- The column of scales repeated along the lanes: at row `r`, lane `k`, the scale of row `r`. -/
theorem scaleRepIdx2 (r : Fin 50000) (k : Fin 128) : idx_main_v139 (ix2 r k) = ix2 r (0 : Fin 1) :=
  funext fun a => Fin.ext (by match a with | ⟨0, _⟩ => rfl | ⟨1, _⟩ => rfl)

/-- Layer 2 at row `r`, lane `k` is row `r` of the aggregated block normalised, scaled, shifted and clipped at zero. -/
theorem norm2 (r : Fin 50000) (k : Fin 128) :
    val_main_v147 (F := Ideal) x0 x1 x3 x4 x5 x6 x7 x8 x9 x10 (ix2 r k)
      = Cert.RowNorm.normRow (Ideal.ofBits .f32 0x43000000#32) (Ideal.ofBits .f32 0x3727C5AC#32) (Ideal.ofBits .f32 0x00000000#32)
          (fun j : Fin 128 => val_main_v119 (F := Ideal) x0 x1 x3 x4 x5 x6 x7 (ix2 r j)) (fun j : Fin 128 => x8 (ix1 j)) (fun j : Fin 128 => x9 (ix1 j)) (fun j : Fin 128 => x10 (ix1 j)) k := by
  rw [val_main_v147_apply, val_main_v146_apply, val_main_v143_apply, val_main_v140_apply, centred'2, val_main_v139_apply, scaleRepIdx2, rowScale2,
    gainRow2, offsetRow2, val_main_call3_v0_apply, val_main_call3_cst_apply] <;> rfl

/-! ### The pooled head: each graph's row of sums divided by the graph's count (at least one), multiplied into the last
    weight matrix and shifted by the last bias row -/

/-- The last bias row repeated down the block: at graph `r`, class `c`, the bias at `c`. -/
theorem biasRowHead (r : Fin 64) (c : Fin 10) : val_main_v162 (F := Ideal) x12 (ix2 r c) = x12 (ix1 c) :=
  (val_main_v162_apply (F := Ideal) x12 (ix2 r c)).trans ((val_main_v161_apply (F := Ideal) x12 _).trans
    (congrArg x12 (funext fun a => Fin.ext (by match a with | ⟨0, _⟩ => rfl))))

/-- The column of counts repeated along the lanes reads the count of the row's graph. -/
theorem countRepIdx (r : Fin 64) (k : Fin 128) : idx_main_v157 (idx_main_v158 (ix2 r k)) = ix1 r :=
  funext fun a => Fin.ext (by match a with | ⟨0, _⟩ => rfl)

/-- The divisor at graph `r`, lane `k`: the graph's count, at least one. -/
theorem countRep (r : Fin 64) (k : Fin 128) :
    val_main_v158 (F := Ideal) x2 (ix2 r k) = max (val_main_v154 (F := Ideal) x2 (ix1 r)) (Ideal.ofBits .f32 0x3F800000#32) := by
  rw [val_main_v158_apply, val_main_v157_apply, countRepIdx, val_main_v156_apply, val_main_v155_apply,
    val_main_cst_35_apply] <;> rfl

/-- The pooled block at graph `r`, lane `k`: the graph's sum divided by its count, at least one. -/
theorem pooled (r : Fin 64) (k : Fin 128) :
    val_main_v159 (F := Ideal) x0 x1 x2 x3 x4 x5 x6 x7 x8 x9 x10 (ix2 r k)
      = Ideal.div (val_main_v150 (F := Ideal) x0 x1 x2 x3 x4 x5 x6 x7 x8 x9 x10 (ix2 r k))
          (max (val_main_v154 (F := Ideal) x2 (ix1 r)) (Ideal.ofBits .f32 0x3F800000#32)) := by
  rw [val_main_v159_apply, countRep] <;> rfl

/-- The left operand of the last product is read at (graph, contraction position). -/
theorem headLhsIdx (r : Fin 64) (c : Fin 10) (k : Fin 128) : lidx_main_v160 (ix2 r c) k = ix2 r k :=
  funext fun a => Fin.ext (by match a with | ⟨0, _⟩ => rfl | ⟨1, _⟩ => rfl)

/-- The right operand of the last product is read at (contraction position, class). -/
theorem headRhsIdx (r : Fin 64) (c : Fin 10) (k : Fin 128) : ridx_main_v160 (ix2 r c) k = ix2 k c :=
  funext fun a => Fin.ext (by match a with | ⟨0, _⟩ => rfl | ⟨1, _⟩ => rfl)

/-- The result at graph `r`, class `c`: the pooled row multiplied into the last weight matrix, plus the bias. -/
theorem head (r : Fin 64) (c : Fin 10) :
    val_main_v163 (F := Ideal) x0 x1 x2 x3 x4 x5 x6 x7 x8 x9 x10 x11 x12 (ix2 r c)
      = (∑ k : Fin 128, Ideal.div (val_main_v150 (F := Ideal) x0 x1 x2 x3 x4 x5 x6 x7 x8 x9 x10 (ix2 r k))
          (max (val_main_v154 (F := Ideal) x2 (ix1 r)) (Ideal.ofBits .f32 0x3F800000#32)) * x11 (ix2 k c)) + x12 (ix1 c) := by
  rw [val_main_v163_apply, val_main_v160_apply, biasRowHead, Ideal.addf_def]
  refine congrArg (· + x12 (ix1 c)) (Finset.sum_congr rfl fun k _ => ?_)
  rw [headLhsIdx, headRhsIdx, pooled] <;> rfl

end Cert.RefStages

end
-- ==== Proof.Fold.lean ====
/-
  The idealized kernel's buffer contents, boundary by boundary, are the reference's staged values of the arguments.

  Between the launch and the return the buffers pass through twelve boundaries. A host stretch computes new arrays
  from old ones with the same host functions the reference uses; a region leaves in its output array one whole-array
  function of its input arrays (the product rows by columns, the row-by-row normalisation, the pooled head). Going down
  the boundaries, each array a later segment reads is identified with the reference's value of the same stage as a
  function of the arguments: the edge index lists and the edge weights (computed once here, twice in the reference —
  the same function of the edge array), the first product, the first gathered-scaled-scattered array, the first
  normalised array, and so on to the result. An argument's buffer is written by no segment, so at every boundary it
  holds its launch contents. Nothing here needs an entry to be finite.
-/
import proofs.«105438_j15504831939241_1_alg».proof.Proof.Gen.KernelIdeal.Frame
import proofs.«105438_j15504831939241_1_alg».proof.Proof.Dense0
import proofs.«105438_j15504831939241_1_alg».proof.Proof.Norm1
import proofs.«105438_j15504831939241_1_alg».proof.Proof.Dense2
import proofs.«105438_j15504831939241_1_alg».proof.Proof.Norm3
import proofs.«105438_j15504831939241_1_alg».proof.Proof.Head4
import proofs.«105438_j15504831939241_1_alg».proof.Proof.RefRead
import proofs.«105438_j15504831939241_1_alg».proof.Proof.RefStages
import Idealize.ShloMosaic.Lib.StableHlo.Run
import Idealize.ShloMosaic.Lib.ValueLayout

noncomputable section

namespace Cert.KernelIdeal.Fold

open Idealize.ShloMosaic Idealize.ShloMosaic.TcCoe Idealize.ShloMosaic.ValueIdx Idealize.ShloMosaic.PlainProduct Idealize.SL.Sem
open Cert.KernelIdeal Cert.KernelIdeal.Gen Cert.Spec

open Cert.ReferenceIdeal.Read

variable (m : (ℓ : Loc nD τ sig) → Buf (Elt Ideal) ℓ) (ρ : Dev nD → PrngReg) (c : Dev nD)

/-- A buffer no operation of a host stretch writes keeps its contents through the stretch. -/
macro "host_kept" : tactic =>
  `(tactic| (refine StableHlo.after_of_forall_not_mem _ _ (List.forall_iff_forall_mem.mp ?_)
             simp only [hostOps0, hostOps0_1, hostOps0_2, hostOps1, hostOps3, hostOps4, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ## Up to the first region: the arguments, the two edge index lists, the edge weights -/

theorem arg0_3 : W3 m ρ c (Proc.devRef .tc main_arg0) = (m ((c : Thread nD τ).loc main_arg0)) :=
  (show StableHlo.after hostOps0_2 (W2 m ρ c) (Proc.devRef .tc main_arg0) = W2 m ρ c (Proc.devRef .tc main_arg0) by host_kept).trans
    ((show StableHlo.after hostOps0_1 (W1 m ρ c) (Proc.devRef .tc main_arg0) = W1 m ρ c (Proc.devRef .tc main_arg0) by host_kept).trans
      (show StableHlo.after hostOps0 (W0 m ρ c) (Proc.devRef .tc main_arg0) = W0 m ρ c (Proc.devRef .tc main_arg0) by host_kept))

theorem arg2_3 : W3 m ρ c (Proc.devRef .tc main_arg2) = (m ((c : Thread nD τ).loc main_arg2)) :=
  (show StableHlo.after hostOps0_2 (W2 m ρ c) (Proc.devRef .tc main_arg2) = W2 m ρ c (Proc.devRef .tc main_arg2) by host_kept).trans
    ((show StableHlo.after hostOps0_1 (W1 m ρ c) (Proc.devRef .tc main_arg2) = W1 m ρ c (Proc.devRef .tc main_arg2) by host_kept).trans
      (show StableHlo.after hostOps0 (W0 m ρ c) (Proc.devRef .tc main_arg2) = W0 m ρ c (Proc.devRef .tc main_arg2) by host_kept))

theorem arg3_3 : W3 m ρ c (Proc.devRef .tc main_arg3) = (m ((c : Thread nD τ).loc main_arg3)) :=
  (show StableHlo.after hostOps0_2 (W2 m ρ c) (Proc.devRef .tc main_arg3) = W2 m ρ c (Proc.devRef .tc main_arg3) by host_kept).trans
    ((show StableHlo.after hostOps0_1 (W1 m ρ c) (Proc.devRef .tc main_arg3) = W1 m ρ c (Proc.devRef .tc main_arg3) by host_kept).trans
      (show StableHlo.after hostOps0 (W0 m ρ c) (Proc.devRef .tc main_arg3) = W0 m ρ c (Proc.devRef .tc main_arg3) by host_kept))

theorem arg4_3 : W3 m ρ c (Proc.devRef .tc main_arg4) = (m ((c : Thread nD τ).loc main_arg4)) :=
  (show StableHlo.after hostOps0_2 (W2 m ρ c) (Proc.devRef .tc main_arg4) = W2 m ρ c (Proc.devRef .tc main_arg4) by host_kept).trans
    ((show StableHlo.after hostOps0_1 (W1 m ρ c) (Proc.devRef .tc main_arg4) = W1 m ρ c (Proc.devRef .tc main_arg4) by host_kept).trans
      (show StableHlo.after hostOps0 (W0 m ρ c) (Proc.devRef .tc main_arg4) = W0 m ρ c (Proc.devRef .tc main_arg4) by host_kept))

theorem arg5_3 : W3 m ρ c (Proc.devRef .tc main_arg5) = (m ((c : Thread nD τ).loc main_arg5)) :=
  (show StableHlo.after hostOps0_2 (W2 m ρ c) (Proc.devRef .tc main_arg5) = W2 m ρ c (Proc.devRef .tc main_arg5) by host_kept).trans
    ((show StableHlo.after hostOps0_1 (W1 m ρ c) (Proc.devRef .tc main_arg5) = W1 m ρ c (Proc.devRef .tc main_arg5) by host_kept).trans
      (show StableHlo.after hostOps0 (W0 m ρ c) (Proc.devRef .tc main_arg5) = W0 m ρ c (Proc.devRef .tc main_arg5) by host_kept))

theorem arg6_3 : W3 m ρ c (Proc.devRef .tc main_arg6) = (m ((c : Thread nD τ).loc main_arg6)) :=
  (show StableHlo.after hostOps0_2 (W2 m ρ c) (Proc.devRef .tc main_arg6) = W2 m ρ c (Proc.devRef .tc main_arg6) by host_kept).trans
    ((show StableHlo.after hostOps0_1 (W1 m ρ c) (Proc.devRef .tc main_arg6) = W1 m ρ c (Proc.devRef .tc main_arg6) by host_kept).trans
      (show StableHlo.after hostOps0 (W0 m ρ c) (Proc.devRef .tc main_arg6) = W0 m ρ c (Proc.devRef .tc main_arg6) by host_kept))

theorem arg7_3 : W3 m ρ c (Proc.devRef .tc main_arg7) = (m ((c : Thread nD τ).loc main_arg7)) :=
  (show StableHlo.after hostOps0_2 (W2 m ρ c) (Proc.devRef .tc main_arg7) = W2 m ρ c (Proc.devRef .tc main_arg7) by host_kept).trans
    ((show StableHlo.after hostOps0_1 (W1 m ρ c) (Proc.devRef .tc main_arg7) = W1 m ρ c (Proc.devRef .tc main_arg7) by host_kept).trans
      (show StableHlo.after hostOps0 (W0 m ρ c) (Proc.devRef .tc main_arg7) = W0 m ρ c (Proc.devRef .tc main_arg7) by host_kept))

theorem arg8_3 : W3 m ρ c (Proc.devRef .tc main_arg8) = (m ((c : Thread nD τ).loc main_arg8)) :=
  (show StableHlo.after hostOps0_2 (W2 m ρ c) (Proc.devRef .tc main_arg8) = W2 m ρ c (Proc.devRef .tc main_arg8) by host_kept).trans
    ((show StableHlo.after hostOps0_1 (W1 m ρ c) (Proc.devRef .tc main_arg8) = W1 m ρ c (Proc.devRef .tc main_arg8) by host_kept).trans
      (show StableHlo.after hostOps0 (W0 m ρ c) (Proc.devRef .tc main_arg8) = W0 m ρ c (Proc.devRef .tc main_arg8) by host_kept))

theorem arg9_3 : W3 m ρ c (Proc.devRef .tc main_arg9) = (m ((c : Thread nD τ).loc main_arg9)) :=
  (show StableHlo.after hostOps0_2 (W2 m ρ c) (Proc.devRef .tc main_arg9) = W2 m ρ c (Proc.devRef .tc main_arg9) by host_kept).trans
    ((show StableHlo.after hostOps0_1 (W1 m ρ c) (Proc.devRef .tc main_arg9) = W1 m ρ c (Proc.devRef .tc main_arg9) by host_kept).trans
      (show StableHlo.after hostOps0 (W0 m ρ c) (Proc.devRef .tc main_arg9) = W0 m ρ c (Proc.devRef .tc main_arg9) by host_kept))

theorem arg10_3 : W3 m ρ c (Proc.devRef .tc main_arg10) = (m ((c : Thread nD τ).loc main_arg10)) :=
  (show StableHlo.after hostOps0_2 (W2 m ρ c) (Proc.devRef .tc main_arg10) = W2 m ρ c (Proc.devRef .tc main_arg10) by host_kept).trans
    ((show StableHlo.after hostOps0_1 (W1 m ρ c) (Proc.devRef .tc main_arg10) = W1 m ρ c (Proc.devRef .tc main_arg10) by host_kept).trans
      (show StableHlo.after hostOps0 (W0 m ρ c) (Proc.devRef .tc main_arg10) = W0 m ρ c (Proc.devRef .tc main_arg10) by host_kept))

theorem arg11_3 : W3 m ρ c (Proc.devRef .tc main_arg11) = (m ((c : Thread nD τ).loc main_arg11)) :=
  (show StableHlo.after hostOps0_2 (W2 m ρ c) (Proc.devRef .tc main_arg11) = W2 m ρ c (Proc.devRef .tc main_arg11) by host_kept).trans
    ((show StableHlo.after hostOps0_1 (W1 m ρ c) (Proc.devRef .tc main_arg11) = W1 m ρ c (Proc.devRef .tc main_arg11) by host_kept).trans
      (show StableHlo.after hostOps0 (W0 m ρ c) (Proc.devRef .tc main_arg11) = W0 m ρ c (Proc.devRef .tc main_arg11) by host_kept))

theorem arg12_3 : W3 m ρ c (Proc.devRef .tc main_arg12) = (m ((c : Thread nD τ).loc main_arg12)) :=
  (show StableHlo.after hostOps0_2 (W2 m ρ c) (Proc.devRef .tc main_arg12) = W2 m ρ c (Proc.devRef .tc main_arg12) by host_kept).trans
    ((show StableHlo.after hostOps0_1 (W1 m ρ c) (Proc.devRef .tc main_arg12) = W1 m ρ c (Proc.devRef .tc main_arg12) by host_kept).trans
      (show StableHlo.after hostOps0 (W0 m ρ c) (Proc.devRef .tc main_arg12) = W0 m ρ c (Proc.devRef .tc main_arg12) by host_kept))

theorem v5_3 : W3 m ρ c (Proc.devRef .tc main_v5) = val_main_v5 (F := Ideal) (m ((c : Thread nD τ).loc main_arg1)) := by
  show StableHlo.after hostOps0_2 (StableHlo.after hostOps0_1 (StableHlo.after hostOps0 (W0 m ρ c))) (Proc.devRef .tc main_v5) = _
  after_results_simp
  rfl

theorem v6_3 : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  rfl

theorem v5_2 : W2 m ρ c (Proc.devRef .tc main_v5) = val_main_v5 (F := Ideal) (m ((c : Thread nD τ).loc main_arg1)) := by
  show StableHlo.after hostOps0_1 (StableHlo.after hostOps0 (W0 m ρ c)) (Proc.devRef .tc main_v5) = _
  after_results_simp
  rfl

theorem v6_2 : W2 m ρ c (Proc.devRef .tc main_v6) = val_main_v6 (F := Ideal) (m ((c : Thread nD τ).loc main_arg1)) := by
  show StableHlo.after hostOps0_1 (StableHlo.after hostOps0 (W0 m ρ c)) (Proc.devRef .tc main_v6) = _
  after_results_simp
  rfl

theorem v12_1 : W1 m ρ c (Proc.devRef .tc main_v12) = val_main_v12 (F := Ideal) (m ((c : Thread nD τ).loc main_arg1)) := by
  show StableHlo.after hostOps0 (W0 m ρ c) (Proc.devRef .tc main_v12) = _
  after_results_simp
  rfl

theorem v15_1 : W1 m ρ c (Proc.devRef .tc main_v15) = val_main_v15 (F := Ideal) (m ((c : Thread nD τ).loc main_arg1)) := by
  show StableHlo.after hostOps0 (W0 m ρ c) (Proc.devRef .tc main_v15) = _
  after_results_simp
  rfl

theorem cst3_1 : W1 m ρ c (Proc.devRef .tc main_cst_3) = val_main_cst_3 (F := Ideal) := by
  show StableHlo.after hostOps0 (W0 m ρ c) (Proc.devRef .tc main_cst_3) = _
  after_results_simp
  rfl

/-- The reciprocal square roots of the counts, zero where a count is zero: the outlined selection. Its operands and its
    result pass through typed references, whose carrying of a value to the buffer's type and back is a cast along an
    equation between equal types, so each is (heterogeneously, hence at these buffers plainly) equal to the value. -/
theorem v16_2 : W2 m ρ c (Proc.devRef .tc main_v16) = val_main_v16 (F := Ideal) (m ((c : Thread nD τ).loc main_arg1)) := by
  have h12 := v12_1 m ρ c
  have h15 := v15_1 m ρ c
  have h3 := cst3_1 m ρ c
  show StableHlo.after hostOps0_1 (W1 m ρ c) (Proc.devRef .tc main_v16) = _
  generalize W1 m ρ c = V at h12 h15 h3 ⊢
  after_results_simp
  rw [h12, h15, h3]
  refine eq_of_heq ((cast_heq _ _).trans (heq_of_eq ?_))
  have e12 : (StableHlo.TRef.of main_v12 : StableHlo.TRef sig ⟨S50000, .i1⟩).ofBuf (val_main_v12 (F := Ideal) (m ((c : Thread nD τ).loc main_arg1)))
      = val_main_v12 (F := Ideal) (m ((c : Thread nD τ).loc main_arg1)) := eq_of_heq (cast_heq _ _)
  have e15 : (StableHlo.TRef.of main_v15 : StableHlo.TRef sig ⟨S50000, .f32⟩).ofBuf (val_main_v15 (F := Ideal) (m ((c : Thread nD τ).loc main_arg1)))
      = val_main_v15 (F := Ideal) (m ((c : Thread nD τ).loc main_arg1)) := eq_of_heq (cast_heq _ _)
  have e3 : (StableHlo.TRef.of main_cst_3 : StableHlo.TRef sig ⟨S_, .f32⟩).ofBuf (val_main_cst_3 (F := Ideal))
      = val_main_cst_3 (F := Ideal) := eq_of_heq (cast_heq _ _)
  rw [e12, e15, e3]
  rfl

theorem v31_3 : W3 m ρ c (Proc.devRef .tc main_v31) = val_main_v31 (F := Ideal) (m ((c : Thread nD τ).loc main_arg1)) := by
  have h16 := v16_2 m ρ c
  have h5 := v5_2 m ρ c
  have h6 := v6_2 m ρ c
  show StableHlo.after hostOps0_2 (W2 m ρ c) (Proc.devRef .tc main_v31) = _
  generalize W2 m ρ c = V at h16 h5 h6 ⊢
  after_results_simp
  rw [h16, h5, h6]
  rfl

/-! ## After the first region: the first product -/

theorem v32_4 : W4 m ρ c (Proc.devRef .tc main_v32) = val_main_v32 (F := Ideal) (m ((c : Thread nD τ).loc main_arg0)) (m ((c : Thread nD τ).loc main_arg3)) := by
  refine ((W4_arr m ρ c 2).trans (Dense0.product (V3 m ρ) c)).trans ?_
  show rowsByCols (φ₁ := .f32) (φ₂ := .f32) (M := 50000) (K := 128) (N := 128) (W3 m ρ c (Proc.devRef .tc main_arg0)) (W3 m ρ c (Proc.devRef .tc main_arg3)) = _
  rw [arg0_3, arg3_3]
  exact (Cert.RefStages.dense1 _ _).symm

theorem v5_4 : W4 m ρ c (Proc.devRef .tc main_v5) = val_main_v5 (F := Ideal) (m ((c : Thread nD τ).loc main_arg1)) := (W4_of_ne m ρ c main_v5 (by decide)).trans (v5_3 m ρ c)

theorem v6_4 : W4 m ρ c (Proc.devRef .tc main_v6) = val_main_v6 (F := Ideal) (m ((c : Thread nD τ).loc main_arg1)) := (W4_of_ne m ρ c main_v6 (by decide)).trans (v6_3 m ρ c)

theorem v31_4 : W4 m ρ c (Proc.devRef .tc main_v31) = val_main_v31 (F := Ideal) (m ((c : Thread nD τ).loc main_arg1)) := (W4_of_ne m ρ c main_v31 (by decide)).trans (v31_3 m ρ c)

theorem arg2_4 : W4 m ρ c (Proc.devRef .tc main_arg2) = (m ((c : Thread nD τ).loc main_arg2)) := (W4_of_ne m ρ c main_arg2 (by decide)).trans (arg2_3 m ρ c)

theorem arg4_4 : W4 m ρ c (Proc.devRef .tc main_arg4) = (m ((c : Thread nD τ).loc main_arg4)) := (W4_of_ne m ρ c main_arg4 (by decide)).trans (arg4_3 m ρ c)

theorem arg5_4 : W4 m ρ c (Proc.devRef .tc main_arg5) = (m ((c : Thread nD τ).loc main_arg5)) := (W4_of_ne m ρ c main_arg5 (by decide)).trans (arg5_3 m ρ c)

theorem arg6_4 : W4 m ρ c (Proc.devRef .tc main_arg6) = (m ((c : Thread nD τ).loc main_arg6)) := (W4_of_ne m ρ c main_arg6 (by decide)).trans (arg6_3 m ρ c)

theorem arg7_4 : W4 m ρ c (Proc.devRef .tc main_arg7) = (m ((c : Thread nD τ).loc main_arg7)) := (W4_of_ne m ρ c main_arg7 (by decide)).trans (arg7_3 m ρ c)

theorem arg8_4 : W4 m ρ c (Proc.devRef .tc main_arg8) = (m ((c : Thread nD τ).loc main_arg8)) := (W4_of_ne m ρ c main_arg8 (by decide)).trans (arg8_3 m ρ c)

theorem arg9_4 : W4 m ρ c (Proc.devRef .tc main_arg9) = (m ((c : Thread nD τ).loc main_arg9)) := (W4_of_ne m ρ c main_arg9 (by decide)).trans (arg9_3 m ρ c)

theorem arg10_4 : W4 m ρ c (Proc.devRef .tc main_arg10) = (m ((c : Thread nD τ).loc main_arg10)) := (W4_of_ne m ρ c main_arg10 (by decide)).trans (arg10_3 m ρ c)

theorem arg11_4 : W4 m ρ c (Proc.devRef .tc main_arg11) = (m ((c : Thread nD τ).loc main_arg11)) := (W4_of_ne m ρ c main_arg11 (by decide)).trans (arg11_3 m ρ c)

theorem arg12_4 : W4 m ρ c (Proc.devRef .tc main_arg12) = (m ((c : Thread nD τ).loc main_arg12)) := (W4_of_ne m ρ c main_arg12 (by decide)).trans (arg12_3 m ρ c)

/-! ## After the stretch between the first two regions: the first gathered, scaled and scattered array; the three rows -/

theorem v45_5 : W5 m ρ c (Proc.devRef .tc main_v45) = val_main_v45 (F := Ideal) (m ((c : Thread nD τ).loc main_arg0)) (m ((c : Thread nD τ).loc main_arg1)) (m ((c : Thread nD τ).loc main_arg3)) := by
  show StableHlo.after hostOps1 (W4 m ρ c) (Proc.devRef .tc main_v45) = _
  after_results_simp
  rw [v32_4, v5_4, v6_4, v31_4]
  rfl

theorem v46_5 : W5 m ρ c (Proc.devRef .tc main_v46) = shapeCast S1x128 (m ((c : Thread nD τ).loc main_arg4)) shapeCasts_S128_S1x128 := by
  show StableHlo.after hostOps1 (W4 m ρ c) (Proc.devRef .tc main_v46) = _
  after_results_simp
  rw [arg4_4]
  rfl

theorem v47_5 : W5 m ρ c (Proc.devRef .tc main_v47) = shapeCast S1x128 (m ((c : Thread nD τ).loc main_arg5)) shapeCasts_S128_S1x128 := by
  show StableHlo.after hostOps1 (W4 m ρ c) (Proc.devRef .tc main_v47) = _
  after_results_simp
  rw [arg5_4]
  rfl

theorem v48_5 : W5 m ρ c (Proc.devRef .tc main_v48) = shapeCast S1x128 (m ((c : Thread nD τ).loc main_arg6)) shapeCasts_S128_S1x128 := by
  show StableHlo.after hostOps1 (W4 m ρ c) (Proc.devRef .tc main_v48) = _
  after_results_simp
  rw [arg6_4]
  rfl

theorem v5_5 : W5 m ρ c (Proc.devRef .tc main_v5) = val_main_v5 (F := Ideal) (m ((c : Thread nD τ).loc main_arg1)) :=
  (show StableHlo.after hostOps1 (W4 m ρ c) (Proc.devRef .tc main_v5) = W4 m ρ c (Proc.devRef .tc main_v5) by host_kept).trans (v5_4 m ρ c)

theorem v6_5 : W5 m ρ c (Proc.devRef .tc main_v6) = val_main_v6 (F := Ideal) (m ((c : Thread nD τ).loc main_arg1)) :=
  (show StableHlo.after hostOps1 (W4 m ρ c) (Proc.devRef .tc main_v6) = W4 m ρ c (Proc.devRef .tc main_v6) by host_kept).trans (v6_4 m ρ c)

theorem v31_5 : W5 m ρ c (Proc.devRef .tc main_v31) = val_main_v31 (F := Ideal) (m ((c : Thread nD τ).loc main_arg1)) :=
  (show StableHlo.after hostOps1 (W4 m ρ c) (Proc.devRef .tc main_v31) = W4 m ρ c (Proc.devRef .tc main_v31) by host_kept).trans (v31_4 m ρ c)

theorem arg2_5 : W5 m ρ c (Proc.devRef .tc main_arg2) = (m ((c : Thread nD τ).loc main_arg2)) :=
  (show StableHlo.after hostOps1 (W4 m ρ c) (Proc.devRef .tc main_arg2) = W4 m ρ c (Proc.devRef .tc main_arg2) by host_kept).trans (arg2_4 m ρ c)

theorem arg7_5 : W5 m ρ c (Proc.devRef .tc main_arg7) = (m ((c : Thread nD τ).loc main_arg7)) :=
  (show StableHlo.after hostOps1 (W4 m ρ c) (Proc.devRef .tc main_arg7) = W4 m ρ c (Proc.devRef .tc main_arg7) by host_kept).trans (arg7_4 m ρ c)

theorem arg8_5 : W5 m ρ c (Proc.devRef .tc main_arg8) = (m ((c : Thread nD τ).loc main_arg8)) :=
  (show StableHlo.after hostOps1 (W4 m ρ c) (Proc.devRef .tc main_arg8) = W4 m ρ c (Proc.devRef .tc main_arg8) by host_kept).trans (arg8_4 m ρ c)

theorem arg9_5 : W5 m ρ c (Proc.devRef .tc main_arg9) = (m ((c : Thread nD τ).loc main_arg9)) :=
  (show StableHlo.after hostOps1 (W4 m ρ c) (Proc.devRef .tc main_arg9) = W4 m ρ c (Proc.devRef .tc main_arg9) by host_kept).trans (arg9_4 m ρ c)

theorem arg10_5 : W5 m ρ c (Proc.devRef .tc main_arg10) = (m ((c : Thread nD τ).loc main_arg10)) :=
  (show StableHlo.after hostOps1 (W4 m ρ c) (Proc.devRef .tc main_arg10) = W4 m ρ c (Proc.devRef .tc main_arg10) by host_kept).trans (arg10_4 m ρ c)

theorem arg11_5 : W5 m ρ c (Proc.devRef .tc main_arg11) = (m ((c : Thread nD τ).loc main_arg11)) :=
  (show StableHlo.after hostOps1 (W4 m ρ c) (Proc.devRef .tc main_arg11) = W4 m ρ c (Proc.devRef .tc main_arg11) by host_kept).trans (arg11_4 m ρ c)

theorem arg12_5 : W5 m ρ c (Proc.devRef .tc main_arg12) = (m ((c : Thread nD τ).loc main_arg12)) :=
  (show StableHlo.after hostOps1 (W4 m ρ c) (Proc.devRef .tc main_arg12) = W4 m ρ c (Proc.devRef .tc main_arg12) by host_kept).trans (arg12_4 m ρ c)

/-! ## After the first normalisation region and the second product region -/

theorem v49_6 : W6 m ρ c (Proc.devRef .tc main_v49) = val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine ((W6_arr m ρ c 4).trans (Norm1.normalised (V5 m ρ) c)).trans ?_
  show normRows (R := 50000) (n := 128) (W5 m ρ c (Proc.devRef .tc main_v45)) (W5 m ρ c (Proc.devRef .tc main_v46))
      (W5 m ρ c (Proc.devRef .tc main_v47)) (W5 m ρ c (Proc.devRef .tc main_v48)) 0x43000000#32 0x3727C5AC#32 0x00000000#32 = _
  rw [v45_5, v46_5, v47_5, v48_5]
  funext i
  obtain ⟨r, k, rfl⟩ : ∃ (r : Fin 50000) (k : Fin 128), i = ix2 r k := ⟨i 0, i 1, eq_ix2 i⟩
  rw [Cert.RefStages.norm1]
  unfold normRows
  simp only [shapeCast_a_1a_apply]

theorem v5_6 : W6 m ρ c (Proc.devRef .tc main_v5) = val_main_v5 (F := Ideal) (m ((c : Thread nD τ).loc main_arg1)) := (W6_of_ne m ρ c main_v5 (by decide)).trans (v5_5 m ρ c)

theorem v6_6 : W6 m ρ c (Proc.devRef .tc main_v6) = val_main_v6 (F := Ideal) (m ((c : Thread nD τ).loc main_arg1)) := (W6_of_ne m ρ c main_v6 (by decide)).trans (v6_5 m ρ c)

theorem v31_6 : W6 m ρ c (Proc.devRef .tc main_v31) = val_main_v31 (F := Ideal) (m ((c : Thread nD τ).loc main_arg1)) := (W6_of_ne m ρ c main_v31 (by decide)).trans (v31_5 m ρ c)

theorem arg2_6 : W6 m ρ c (Proc.devRef .tc main_arg2) = (m ((c : Thread nD τ).loc main_arg2)) := (W6_of_ne m ρ c main_arg2 (by decide)).trans (arg2_5 m ρ c)

theorem arg7_6 : W6 m ρ c (Proc.devRef .tc main_arg7) = (m ((c : Thread nD τ).loc main_arg7)) := (W6_of_ne m ρ c main_arg7 (by decide)).trans (arg7_5 m ρ c)

theorem arg8_6 : W6 m ρ c (Proc.devRef .tc main_arg8) = (m ((c : Thread nD τ).loc main_arg8)) := (W6_of_ne m ρ c main_arg8 (by decide)).trans (arg8_5 m ρ c)

theorem arg9_6 : W6 m ρ c (Proc.devRef .tc main_arg9) = (m ((c : Thread nD τ).loc main_arg9)) := (W6_of_ne m ρ c main_arg9 (by decide)).trans (arg9_5 m ρ c)

theorem arg10_6 : W6 m ρ c (Proc.devRef .tc main_arg10) = (m ((c : Thread nD τ).loc main_arg10)) := (W6_of_ne m ρ c main_arg10 (by decide)).trans (arg10_5 m ρ c)

theorem arg11_6 : W6 m ρ c (Proc.devRef .tc main_arg11) = (m ((c : Thread nD τ).loc main_arg11)) := (W6_of_ne m ρ c main_arg11 (by decide)).trans (arg11_5 m ρ c)

theorem arg12_6 : W6 m ρ c (Proc.devRef .tc main_arg12) = (m ((c : Thread nD τ).loc main_arg12)) := (W6_of_ne m ρ c main_arg12 (by decide)).trans (arg12_5 m ρ c)

theorem v50_7 : W7 m ρ c (Proc.devRef .tc main_v50) = val_main_v106 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W7_arr m ρ c 2).trans (Dense2.product (V6 m ρ) c)).trans ?_
  show rowsByCols (φ₁ := .f32) (φ₂ := .f32) (M := 50000) (K := 128) (N := 128) (W6 m ρ c (Proc.devRef .tc main_v49)) (W6 m ρ c (Proc.devRef .tc main_arg7)) = _
  rw [v49_6, arg7_6]
  exact (Cert.RefStages.dense2 _ _ _ _ _ _ _).symm

theorem v5_7 : W7 m ρ c (Proc.devRef .tc main_v5) = val_main_v5 (F := Ideal) (m ((c : Thread nD τ).loc main_arg1)) := (W7_of_ne m ρ c main_v5 (by decide)).trans (v5_6 m ρ c)

theorem v6_7 : W7 m ρ c (Proc.devRef .tc main_v6) = val_main_v6 (F := Ideal) (m ((c : Thread nD τ).loc main_arg1)) := (W7_of_ne m ρ c main_v6 (by decide)).trans (v6_6 m ρ c)

theorem v31_7 : W7 m ρ c (Proc.devRef .tc main_v31) = val_main_v31 (F := Ideal) (m ((c : Thread nD τ).loc main_arg1)) := (W7_of_ne m ρ c main_v31 (by decide)).trans (v31_6 m ρ c)

theorem arg2_7 : W7 m ρ c (Proc.devRef .tc main_arg2) = (m ((c : Thread nD τ).loc main_arg2)) := (W7_of_ne m ρ c main_arg2 (by decide)).trans (arg2_6 m ρ c)

theorem arg8_7 : W7 m ρ c (Proc.devRef .tc main_arg8) = (m ((c : Thread nD τ).loc main_arg8)) := (W7_of_ne m ρ c main_arg8 (by decide)).trans (arg8_6 m ρ c)

theorem arg9_7 : W7 m ρ c (Proc.devRef .tc main_arg9) = (m ((c : Thread nD τ).loc main_arg9)) := (W7_of_ne m ρ c main_arg9 (by decide)).trans (arg9_6 m ρ c)

theorem arg10_7 : W7 m ρ c (Proc.devRef .tc main_arg10) = (m ((c : Thread nD τ).loc main_arg10)) := (W7_of_ne m ρ c main_arg10 (by decide)).trans (arg10_6 m ρ c)

theorem arg11_7 : W7 m ρ c (Proc.devRef .tc main_arg11) = (m ((c : Thread nD τ).loc main_arg11)) := (W7_of_ne m ρ c main_arg11 (by decide)).trans (arg11_6 m ρ c)

theorem arg12_7 : W7 m ρ c (Proc.devRef .tc main_arg12) = (m ((c : Thread nD τ).loc main_arg12)) := (W7_of_ne m ρ c main_arg12 (by decide)).trans (arg12_6 m ρ c)

/-! ## After the stretch before the second normalisation: the second gathered, scaled and scattered array; the three rows -/

theorem v63_8 : W8 m ρ c (Proc.devRef .tc main_v63) = val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W7 m ρ c) (Proc.devRef .tc main_v63) = _
  after_results_simp
  rw [v50_7, v5_7, v6_7, v31_7]
  rfl

theorem v64_8 : W8 m ρ c (Proc.devRef .tc main_v64) = shapeCast S1x128 (m ((c : Thread nD τ).loc main_arg8)) shapeCasts_S128_S1x128 := by
  show StableHlo.after hostOps3 (W7 m ρ c) (Proc.devRef .tc main_v64) = _
  after_results_simp
  rw [arg8_7]
  rfl

theorem v65_8 : W8 m ρ c (Proc.devRef .tc main_v65) = shapeCast S1x128 (m ((c : Thread nD τ).loc main_arg9)) shapeCasts_S128_S1x128 := by
  show StableHlo.after hostOps3 (W7 m ρ c) (Proc.devRef .tc main_v65) = _
  after_results_simp
  rw [arg9_7]
  rfl

theorem v66_8 : W8 m ρ c (Proc.devRef .tc main_v66) = shapeCast S1x128 (m ((c : Thread nD τ).loc main_arg10)) shapeCasts_S128_S1x128 := by
  show StableHlo.after hostOps3 (W7 m ρ c) (Proc.devRef .tc main_v66) = _
  after_results_simp
  rw [arg10_7]
  rfl

theorem arg2_8 : W8 m ρ c (Proc.devRef .tc main_arg2) = (m ((c : Thread nD τ).loc main_arg2)) :=
  (show StableHlo.after hostOps3 (W7 m ρ c) (Proc.devRef .tc main_arg2) = W7 m ρ c (Proc.devRef .tc main_arg2) by host_kept).trans (arg2_7 m ρ c)

theorem arg11_8 : W8 m ρ c (Proc.devRef .tc main_arg11) = (m ((c : Thread nD τ).loc main_arg11)) :=
  (show StableHlo.after hostOps3 (W7 m ρ c) (Proc.devRef .tc main_arg11) = W7 m ρ c (Proc.devRef .tc main_arg11) by host_kept).trans (arg11_7 m ρ c)

theorem arg12_8 : W8 m ρ c (Proc.devRef .tc main_arg12) = (m ((c : Thread nD τ).loc main_arg12)) :=
  (show StableHlo.after hostOps3 (W7 m ρ c) (Proc.devRef .tc main_arg12) = W7 m ρ c (Proc.devRef .tc main_arg12) by host_kept).trans (arg12_7 m ρ c)

/-! ## After the second normalisation region -/

theorem v67_9 : W9 m ρ c (Proc.devRef .tc main_v67) = val_main_v147 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W9_arr m ρ c 4).trans (Norm3.normalised (V8 m ρ) c)).trans ?_
  show normRows (R := 50000) (n := 128) (W8 m ρ c (Proc.devRef .tc main_v63)) (W8 m ρ c (Proc.devRef .tc main_v64))
      (W8 m ρ c (Proc.devRef .tc main_v65)) (W8 m ρ c (Proc.devRef .tc main_v66)) 0x43000000#32 0x3727C5AC#32 0x00000000#32 = _
  rw [v63_8, v64_8, v65_8, v66_8]
  funext i
  obtain ⟨r, k, rfl⟩ : ∃ (r : Fin 50000) (k : Fin 128), i = ix2 r k := ⟨i 0, i 1, eq_ix2 i⟩
  rw [Cert.RefStages.norm2]
  unfold normRows
  simp only [shapeCast_a_1a_apply]

theorem arg2_9 : W9 m ρ c (Proc.devRef .tc main_arg2) = (m ((c : Thread nD τ).loc main_arg2)) := (W9_of_ne m ρ c main_arg2 (by decide)).trans (arg2_8 m ρ c)

theorem arg11_9 : W9 m ρ c (Proc.devRef .tc main_arg11) = (m ((c : Thread nD τ).loc main_arg11)) := (W9_of_ne m ρ c main_arg11 (by decide)).trans (arg11_8 m ρ c)

theorem arg12_9 : W9 m ρ c (Proc.devRef .tc main_arg12) = (m ((c : Thread nD τ).loc main_arg12)) := (W9_of_ne m ρ c main_arg12 (by decide)).trans (arg12_8 m ρ c)

/-! ## After the last stretch: the per-graph sums and counts, the bias row -/

theorem v70_10 : W10 m ρ c (Proc.devRef .tc main_v70) = val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps4 (W9 m ρ c) (Proc.devRef .tc main_v70) = _
  after_results_simp
  rw [arg2_9, v67_9]
  rfl

theorem v75_10 : W10 m ρ c (Proc.devRef .tc main_v75) = shapeCast S64x1 (val_main_v154 (F := Ideal) (m ((c : Thread nD τ).loc main_arg2))) shapeCasts_S64_S64x1 := by
  show StableHlo.after hostOps4 (W9 m ρ c) (Proc.devRef .tc main_v75) = _
  after_results_simp
  rw [arg2_9]
  rfl

theorem v76_10 : W10 m ρ c (Proc.devRef .tc main_v76) = shapeCast S1x10 (m ((c : Thread nD τ).loc main_arg12)) shapeCasts_S10_S1x10 := by
  show StableHlo.after hostOps4 (W9 m ρ c) (Proc.devRef .tc main_v76) = _
  after_results_simp
  rw [arg12_9]
  rfl

theorem arg11_10 : W10 m ρ c (Proc.devRef .tc main_arg11) = (m ((c : Thread nD τ).loc main_arg11)) :=
  (show StableHlo.after hostOps4 (W9 m ρ c) (Proc.devRef .tc main_arg11) = W9 m ρ c (Proc.devRef .tc main_arg11) by host_kept).trans (arg11_9 m ρ c)

/-! ## The result -/

/-- The result buffer's last contents are the reference's result as a function of the arguments. -/
theorem result : W11 m ρ c (Proc.devRef .tc main_v77) = val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W11_arr m ρ c 4).trans (Head4.pooled (V10 m ρ) c)).trans ?_
  show pooledHead (G := 64) (H := 128) (C := 10) (W10 m ρ c (Proc.devRef .tc main_v70)) (W10 m ρ c (Proc.devRef .tc main_v75))
      (W10 m ρ c (Proc.devRef .tc main_arg11)) (W10 m ρ c (Proc.devRef .tc main_v76)) 0x3F800000#32 = _
  rw [v70_10, v75_10, arg11_10, v76_10]
  funext i
  obtain ⟨r, q, rfl⟩ : ∃ (r : Fin 64) (q : Fin 10), i = ix2 r q := ⟨i 0, i 1, eq_ix2 i⟩
  rw [Cert.RefStages.head]
  unfold pooledHead
  simp only [Cert.LibLayout.shapeCast_a_a1_apply, shapeCast_a_1a_apply]

end Cert.KernelIdeal.Fold

end
-- ==== Proof.lean ====
/-
  A two-layer graph convolution network with a pooled linear head: the kernel program against its reference.

  Both programs take node features `x : [50000, 128]`, an edge list, a graph id per node, two weight matrices with a
  bias, gain and offset row each, and a final weight matrix with a bias. Both add a self loop to every node, count
  each node's incoming edges, weight every edge by the reciprocal square roots of its endpoints' counts, and then twice:
  multiply the node features by a weight matrix, gather along the edges, scale by the edge weights, sum into the target
  nodes, add the bias row, normalise each row over its 128 lanes, scale, shift and clip at zero. Last they sum the
  rows of each graph, divide by the number of its nodes (at least one), multiply by the final weights and add the bias.

  The kernel program computes the two products, the two row normalisations and the pooled head in five regions, one
  block of 5000 rows per grid point (the head in one point), and everything between them on the host with the host
  functions the reference uses; the reference computes everything on the host. On the extended reals a change of float
  format is the identity, a product into a zero accumulator is the plain sum of products, and a lane sum is a finite
  sum whatever its order, so each region's output array is one whole-array function of its input arrays — the product
  rows by columns (`Dense0`, `Dense2`), the row-by-row normalisation (`Norm1`, `Norm3`), the pooled head (`Head4`) —
  and that function is the reference's value of the same stage (`RefStages`). Going down the segment boundaries
  (`Fold`) the kernel's result buffer ends at the reference's result as a function of the arguments. No step uses a law
  that fails at an infinity: both sides apply the same operations in the same order, so the precondition is not opened.

  The three frames are the generated frame certificates (the reference's is its run with the result dropped); the
  idealization rewrote no operation, so `preserves` is `True`.
-/
import proofs.«105438_j15504831939241_1_alg».proof.Defs
import proofs.«105438_j15504831939241_1_alg».proof.Proof.Gen.Kernel
import proofs.«105438_j15504831939241_1_alg».proof.Proof.Gen.Kernel.Skeleton
import proofs.«105438_j15504831939241_1_alg».proof.Proof.Gen.Kernel.Launch
import proofs.«105438_j15504831939241_1_alg».proof.Proof.Gen.Kernel.Points
import proofs.«105438_j15504831939241_1_alg».proof.Proof.Gen.Kernel.Frame
import proofs.«105438_j15504831939241_1_alg».proof.Proof.Gen.KernelIdeal
import proofs.«105438_j15504831939241_1_alg».proof.Proof.Gen.KernelIdeal.Skeleton
import proofs.«105438_j15504831939241_1_alg».proof.Proof.Gen.KernelIdeal.Launch
import proofs.«105438_j15504831939241_1_alg».proof.Proof.Gen.KernelIdeal.Points
import proofs.«105438_j15504831939241_1_alg».proof.Proof.Gen.KernelIdeal.Frame
import proofs.«105438_j15504831939241_1_alg».proof.Proof.Gen.ReferenceIdeal
import proofs.«105438_j15504831939241_1_alg».proof.Proof.RefRun
import proofs.«105438_j15504831939241_1_alg».proof.Proof.RefRead
import proofs.«105438_j15504831939241_1_alg».proof.Proof.Gen.Pre_finite_inputs
import proofs.«105438_j15504831939241_1_alg».proof.Proof.KernelRun
import proofs.«105438_j15504831939241_1_alg».proof.Proof.Fold
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference runs and keeps its arguments: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the same result: the kernel's result buffer ends at
    the last boundary's contents, which are the reference's result as a function of the arguments (`Fold.result`), and
    the reference's run ends at that function of its own, equal, arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W11 m ρ c (Proc.devRef .tc Cert.KernelIdeal.main_v77),
    Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v163_eq, a0, a1, a2, a3, a4, a5, a6, a7, a8, a9, a10, a11, a12]
  exact (Cert.KernelIdeal.Fold.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
